-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128 : Shape := ⟨1, ![128]⟩
abbrev S8192x128 : Shape := ⟨2, ![8192, 128]⟩
abbrev S8192 : Shape := ⟨1, ![8192]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S8192x128 : S_.BroadcastsInDim S8192x128 (![] : Fin 0 → Fin S8192x128.rank)
  reducesTo_S8192x128_S_d0_1 : S8192x128.ReducesTo [0, 1] S_

variable [Facts]

def fn {F : FTy → Type} [FloatOps F] (main_arg0 : FVec F S128 .f32) (main_arg1 : FVec F S8192x128 .f32) (main_arg2 : IVec S8192 1) : IVec S_ 1 :=
  let main_v0 : FVec F S128 .f32 := Host.absf main_arg0
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S128 : Shape := ⟨1, ![128]⟩
abbrev S8192x128 : Shape := ⟨2, ![8192, 128]⟩
abbrev S8192 : Shape := ⟨1, ![8192]⟩
abbrev S1x128 : Shape := ⟨2, ![1, 128]⟩
abbrev S_ : Shape := ⟨0, ![]⟩
abbrev S8192x1 : Shape := ⟨2, ![8192, 1]⟩
abbrev S128x128 : Shape := ⟨2, ![128, 128]⟩
abbrev S1024x128 : Shape := ⟨2, ![1024, 128]⟩
abbrev S128x1024 : Shape := ⟨2, ![128, 1024]⟩
abbrev S1024x1 : Shape := ⟨2, ![1024, 1]⟩
abbrev S1024 : Shape := ⟨1, ![1024]⟩
abbrev S1 : Shape := ⟨1, ![1]⟩

abbrev nBuf : Space → Nat
  | .hbm => 72
  | .vmem => 12
  | .smem => 0
  | _ => 0

abbrev bufTy : (tb : Table) → Fin (tcTables nBuf tb) → BufTy
  | .hbm, ⟨0, _⟩ => ⟨S128, .f32⟩
  | .hbm, ⟨1, _⟩ => ⟨S8192x128, .f32⟩
  | .hbm, ⟨2, _⟩ => ⟨S8192, .i1⟩
  | .hbm, ⟨3, _⟩ => ⟨S1x128, .f32⟩
  | .hbm, ⟨4, _⟩ => ⟨S8192x128, .f32⟩
  | .hbm, ⟨5, _⟩ => ⟨S8192x128, .f32⟩
  | .hbm, ⟨6, _⟩ => ⟨S_, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x128, .f32⟩
  | .hbm, ⟨28, _⟩ => ⟨S8192x128, .f32⟩
  | .hbm, ⟨29, _⟩ => ⟨S_, .f32⟩
  | .hbm, ⟨30, _⟩ => ⟨S128, .f32⟩
  | .hbm, ⟨31, _⟩ => ⟨S1x128, .f32⟩
  | .hbm, ⟨32, _⟩ => ⟨S128x128, .f32⟩
  | .hbm, ⟨33, _⟩ => ⟨S8192x1, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S1, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S_, .f32⟩
  | .hbm, ⟨51, _⟩ => ⟨S1, .f32⟩
  | .hbm, ⟨52, _⟩ => ⟨S8192, .f32⟩
  | .hbm, ⟨53, _⟩ => ⟨S8192, .f32⟩
  | .hbm, ⟨54, _⟩ => ⟨S8192x1, .f32⟩
  | .hbm, ⟨55, _⟩ => ⟨S8192x128, .f32⟩
  | .hbm, ⟨56, _⟩ => ⟨S8192x128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S_, .f32⟩
  | .hbm, ⟨61, _⟩ => ⟨S_, .f32⟩
  | .hbm, ⟨62, _⟩ => ⟨S1, .f32⟩
  | .hbm, ⟨63, _⟩ => ⟨S1, .f32⟩
  | .hbm, ⟨64, _⟩ => ⟨S_, .f32⟩
  | .hbm, ⟨65, _⟩ => ⟨S1, .f32⟩
  | .hbm, ⟨66, _⟩ => ⟨S1, .f32⟩
  | .hbm, ⟨67, _⟩ => ⟨S128, .f32⟩
  | .hbm, ⟨68, _⟩ => ⟨S128, .f32⟩
  | .hbm, ⟨69, _⟩ => ⟨S_, .i1⟩
  | .hbm, ⟨70, _⟩ => ⟨S_, .i1⟩
  | .hbm, ⟨71, _⟩ => ⟨S128, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S128x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S128x128, .f32⟩
  | .local _ .vmem, ⟨9, _⟩ => ⟨S1x128, .f32⟩
  | .local _ .vmem, ⟨10, _⟩ => ⟨S1024x1, .f32⟩
  | .local _ .vmem, ⟨11, _⟩ => ⟨S1024x1, .f32⟩
  | _, _ => ⟨S128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_call2_v0 : Ref sig .tc := ⟨.hbm, 38, rfl⟩
abbrev main_call2_v1 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_call3_v0 : Ref sig .tc := ⟨.hbm, 59, rfl⟩
abbrev main_call3_cst : Ref sig .tc := ⟨.hbm, 60, rfl⟩
abbrev main_call3_v1 : Ref sig .tc := ⟨.hbm, 61, rfl⟩
abbrev main_call3_v2 : Ref sig .tc := ⟨.hbm, 62, rfl⟩
abbrev main_v37 : Ref sig .tc := ⟨.hbm, 63, rfl⟩
abbrev main_cst_8 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c : Ref sig .tc := ⟨.hbm, 69, rfl⟩
abbrev main_v42 : Ref sig .tc := ⟨.hbm, 70, rfl⟩
abbrev main_v43 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem4_1 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  reducesTo_S8192x128_S128_d0 : S8192x128.ReducesTo [0] S128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  transposes_S1024x128_p1_0_S128x1024 : S1024x128.Transposes [1, 0] S128x1024
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  reduces_S1024x128_S1024 : S1024x128.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S8192x1_S8192 : S8192x1.ShapeCasts S8192
  bcast_S_S8192 : S_.BroadcastsInDim S8192 (![] : Fin 0 → Fin S8192.rank)
  reducesTo_S8192_S_d0 : S8192.ReducesTo [0] S_
  bcast_S_S1 : S_.BroadcastsInDim S1 (![] : Fin 0 → Fin S1.rank)
  bcast_S1_S8192_0 : S1.BroadcastsInDim S8192 (![0] : Fin 1 → Fin S8192.rank)
  reducesTo_S128_S_d0 : S128.ReducesTo [0] S_
  bcast_S1_S128_0 : S1.BroadcastsInDim S128 (![0] : Fin 1 → Fin S128.rank)
  bcast_S_S128 : S_.BroadcastsInDim S128 (![] : Fin 0 → Fin S128.rank)
  dot_S128x1024_S1024x128_S128x128_1_0_0_1_n_n_wf : DotDims.WF S128x1024 S1024x128 S128x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)

variable [Facts₀]

def dot_S128x1024_S1024x128_S128x128_1_0_0_1_n_n : DotDims S128x1024 S1024x128 S128x128 where
  lhsContracting := [1]
  rhsContracting := [0]
  lhsNonContracting := [0]
  rhsNonContracting := [1]
  lhsBatch := []
  rhsBatch := []
  wf := dot_S128x1024_S1024x128_S128x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v14) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S128x128.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v9) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1024x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S128 : Shape := ⟨1, ![128]⟩
abbrev S8192x128 : Shape := ⟨2, ![8192, 128]⟩
abbrev S8192 : Shape := ⟨1, ![8192]⟩
abbrev S1x128 : Shape := ⟨2, ![1, 128]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S1 : Shape := ⟨1, ![1]⟩

abbrev nBuf : Space → Nat
  | .hbm => 87
  | .vmem => 0
  | .smem => 0
  | _ => 0

abbrev bufTy : (tb : Table) → Fin (tcTables nBuf tb) → BufTy
  | .hbm, ⟨0, _⟩ => ⟨S128, .f32⟩
  | .hbm, ⟨1, _⟩ => ⟨S8192x128, .f32⟩
  | .hbm, ⟨2, _⟩ => ⟨S8192, .i1⟩
  | .hbm, ⟨3, _⟩ => ⟨S1x128, .f32⟩
  | .hbm, ⟨4, _⟩ => ⟨S8192x128, .f32⟩
  | .hbm, ⟨5, _⟩ => ⟨S8192x128, .f32⟩
  | .hbm, ⟨6, _⟩ => ⟨S_, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x128, .f32⟩
  | .hbm, ⟨28, _⟩ => ⟨S8192x128, .f32⟩
  | .hbm, ⟨29, _⟩ => ⟨S128x8192, .f32⟩
  | .hbm, ⟨30, _⟩ => ⟨S8192x8192, .f32⟩
  | .hbm, ⟨31, _⟩ => ⟨S128x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .i32⟩
  | .hbm, ⟨38, _⟩ => ⟨S8192x8192, .i32⟩
  | .hbm, ⟨39, _⟩ => ⟨S_, .i32⟩
  | .hbm, ⟨40, _⟩ => ⟨S8192x8192, .i32⟩
  | .hbm, ⟨41, _⟩ => ⟨S8192x8192, .i32⟩
  | .hbm, ⟨42, _⟩ => ⟨S8192x8192, .i1⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1, .f32⟩
  | .hbm, ⟨61, _⟩ => ⟨S8192, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S1, .f32⟩
  | .hbm, ⟨67, _⟩ => ⟨S8192, .f32⟩
  | .hbm, ⟨68, _⟩ => ⟨S8192, .f32⟩
  | .hbm, ⟨69, _⟩ => ⟨S8192x1, .f32⟩
  | .hbm, ⟨70, _⟩ => ⟨S8192x128, .f32⟩
  | .hbm, ⟨71, _⟩ => ⟨S8192x128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S_, .f32⟩
  | .hbm, ⟨76, _⟩ => ⟨S_, .f32⟩
  | .hbm, ⟨77, _⟩ => ⟨S1, .f32⟩
  | .hbm, ⟨78, _⟩ => ⟨S1, .f32⟩
  | .hbm, ⟨79, _⟩ => ⟨S_, .f32⟩
  | .hbm, ⟨80, _⟩ => ⟨S1, .f32⟩
  | .hbm, ⟨81, _⟩ => ⟨S1, .f32⟩
  | .hbm, ⟨82, _⟩ => ⟨S128, .f32⟩
  | .hbm, ⟨83, _⟩ => ⟨S128, .f32⟩
  | .hbm, ⟨84, _⟩ => ⟨S_, .i1⟩
  | .hbm, ⟨85, _⟩ => ⟨S_, .i1⟩
  | .hbm, ⟨86, _⟩ => ⟨S128, .f32⟩
  | _, _ => ⟨S128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_call2_v0 : Ref sig .tc := ⟨.hbm, 53, rfl⟩
abbrev main_call2_v1 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_call3_v0 : Ref sig .tc := ⟨.hbm, 74, rfl⟩
abbrev main_call3_cst : Ref sig .tc := ⟨.hbm, 75, rfl⟩
abbrev main_call3_v1 : Ref sig .tc := ⟨.hbm, 76, rfl⟩
abbrev main_call3_v2 : Ref sig .tc := ⟨.hbm, 77, rfl⟩
abbrev main_v49 : Ref sig .tc := ⟨.hbm, 78, rfl⟩
abbrev main_cst_10 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_11 : Ref sig .tc := ⟨.hbm, 84, rfl⟩
abbrev main_v54 : Ref sig .tc := ⟨.hbm, 85, rfl⟩
abbrev main_v55 : Ref sig .tc := ⟨.hbm, 86, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  bcast_S_S1 : S_.BroadcastsInDim S1 (![] : Fin 0 → Fin S1.rank)
  bcast_S1_S8192_0 : S1.BroadcastsInDim S8192 (![0] : Fin 1 → Fin S8192.rank)
  reducesTo_S8192x128_S128_d0 : S8192x128.ReducesTo [0] S128
  reducesTo_S128_S_d0 : S128.ReducesTo [0] S_
  bcast_S1_S128_0 : S1.BroadcastsInDim S128 (![0] : Fin 1 → Fin S128.rank)
  bcast_S_S128 : S_.BroadcastsInDim S128 (![] : Fin 0 → Fin S128.rank)
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.GramRunsBits.lean ====
/-
  Region 0: the Gram accumulation M = Σ_blocks Xᵀ X over the eight row blocks of the normalized documents.
  The body keeps its running sum in a scratch buffer that lives across grid points: at the first point the
  scratch is zeroed before the block's product is added, at every point the block's product is added to it, and at
  the last point the sum is copied into the output window. This module runs the body once for each of the three
  situations a grid point can be in — first, middle, last — and records, as lists of written pieces, what the
  scratch and the output buffer hold afterwards.
-/
import proofs.«140489_j65704409694815_2_alg».proof.Proof.Gen.Kernel.Launch
import proofs.«140489_j65704409694815_2_alg».proof.Proof.Gen.Kernel.Skeleton
import proofs.«140489_j65704409694815_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which situation a grid point is in -/

/-- The body's first test: the point is the first of the grid (the scratch is zeroed). -/
abbrev isFirst (i : grid0.Coords) : Prop :=
  (Scalar.cmpi .ne (Scalar.extui (Scalar.cmpi .eq (BitVec.ofNat 32 (i 0).val) 0#32)) 0#32) = 1#1
/-- It holds exactly at point 0. -/
theorem isFirst_iff : ∀ t : Fin cfg0.N, isFirst (grid0.coords t) ↔ t.val % 8 = 0 :=
  (by decide +kernel : ∀ t : Fin grid0.N, isFirst (grid0.coords t) ↔ t.val % 8 = 0)

/-- The body's second test: the point is the last of the grid (the sum is copied out). -/
abbrev isLast (i : grid0.Coords) : Prop := k0_cond2 i = 1#1
/-- It holds exactly at point 7. -/
theorem isLast_iff : ∀ t : Fin cfg0.N, isLast (grid0.coords t) ↔ t.val % 8 = 7 :=
  (by decide +kernel : ∀ t : Fin grid0.N, isLast (grid0.coords t) ↔ t.val % 8 = 7)

/-- The input window is live at every point. -/
theorem in_live : ∀ t : Fin cfg0.N, cfg0.idle 0 (grid0.coords t) = false := by decide +kernel
/-- Before the last point the output window is idle (nothing is stored into it) -/
theorem out_idle : ∀ t : Fin cfg0.N, ¬isLast (grid0.coords t) → cfg0.idle 1 (grid0.coords t) = true := by decide +kernel
/-- and it is not written back; -/
theorem out_noflush : ∀ t : Fin cfg0.N, ¬isLast (grid0.coords t) → (cfg0.win 1).flush t = false := by decide +kernel
/-- at the last point it is live. -/
theorem out_live : ∀ t : Fin cfg0.N, isLast (grid0.coords t) → cfg0.idle 1 (grid0.coords t) = false := by decide +kernel

/-! ## The buffers the body is called with -/

/-- The row block's staging buffer at point `t`, -/
abbrev inBuf (t : Fin cfg0.N) : Memref sig .tc .vmem S1024x128 .f32 := win0_0.stage (cfg0.slots t 0)
abbrev inBuf_whole (t : Fin cfg0.N) : (inBuf t).IsWhole := hstage0_0 ((cfg0.slots t 0).cast nbuf0_0)
/-- the output's, -/
abbrev outBuf (t : Fin cfg0.N) : Memref sig .tc .vmem S128x128 .f32 := win0_1.stage (cfg0.slots t 1)
abbrev outBuf_whole (t : Fin cfg0.N) : (outBuf t).IsWhole := hstage0_1 ((cfg0.slots t 1).cast nbuf0_1)
/-- and the running sum's scratch buffer, which no window stages. -/
abbrev accBuf : Memref sig .tc .vmem S128x128 .f32 := Memref.whole cc0_scratch0
/-- Views through which contents of the two 128×128 buffers are stated. -/
abbrev outView : View sig .tc .vmem S128x128 .f32 := (Memref.whole cc0_stg1_0 : Memref sig .tc .vmem S128x128 .f32).view
abbrev accView : View sig .tc .vmem S128x128 .f32 := (accBuf).view

/-- The core's other scoped buffers that region 0 does not stage (region 1's staging buffers), each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- What the launch hands the region besides its windows: the running sum's buffer at some contents, the other scoped
    buffers, and the generator register at some state. -/
theorem PhiA0_eq (c : Dev nD) :
    (Pipeline.ΦA spec0 c : sProp 𝕄)
      = iprop(iprop((∃ d, owns (c : Thread nD τ) accBuf fullShare d) ∗ others c) ∗ (∃ r, prngReg c r)) := by
  unfold Pipeline.ΦA; rw [scopedRest0_eq]; simp only [accBuf, owns_whole]; try rfl

/-! ## The body, run in each situation -/

set_option maxHeartbeats 1000000 in
/-- FIRST point: the scratch holds anything; it is zeroed, the block's product added; the output buffer is untouched.
    The pieces the scratch ends with are found by the run. -/
noncomputable def runFirst (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (hc0 : isFirst i) (hc1 : ¬isLast i)
    (x0 : Vec F S1024x128 .f32) :
    Σ' (L1 : List (View.Piece (Elt F) S128x128 .f32)), { LS0 : List (View.Piece (Elt F) S128x128 .f32) //
      ∀ (xi1 : Vec F S128x128 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__gram_kernel i arg1 harg1 arg2 harg2 arg3 harg3) K } := by
  refine ⟨[], ?_, fun xi1 E K => ?run⟩
  case run =>
    simp only [cc0__gram_kernel_eq_skeleton]; unfold cc0__gram_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- MIDDLE point: the scratch holds the sum so far `xs0`; the block's product is added; the output buffer is untouched. -/
noncomputable def runMiddle (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (hc0 : ¬isFirst i) (hc1 : ¬isLast i)
    (x0 : Vec F S1024x128 .f32) (xs0 : Vec F S128x128 .f32) :
    Σ' (L1 : List (View.Piece (Elt F) S128x128 .f32)), { LS0 : List (View.Piece (Elt F) S128x128 .f32) //
      ∀ (xi1 : Vec F S128x128 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__gram_kernel i arg1 harg1 arg2 harg2 arg3 harg3) K } := by
  refine ⟨[], ?_, fun xi1 E K => ?run⟩
  case run =>
    simp only [cc0__gram_kernel_eq_skeleton]; unfold cc0__gram_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- LAST point: the scratch holds the sum so far `xs0`; the block's product is added and the total copied into the
    output buffer, whatever that held. -/
noncomputable def runLast (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (hc0 : ¬isFirst i) (hc1 : isLast i)
    (x0 : Vec F S1024x128 .f32) (xs0 : Vec F S128x128 .f32) :
    Σ' (L1 : List (View.Piece (Elt F) S128x128 .f32)), { LS0 : List (View.Piece (Elt F) S128x128 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__gram_kernel i arg1 harg1 arg2 harg2 arg3 harg3) K } := by
  refine ⟨?_, ?_, fun E K => ?run⟩
  case run =>
    simp only [cc0__gram_kernel_eq_skeleton]; unfold cc0__gram_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.Kernel.Frm

end
-- ==== Proof.GramDataBits.lean ====
/-
  Region 0, continued: what the running sum and the output buffer hold after each grid point, by recursion on the
  point (the sum after point n is the block's product added to the sum after point n−1, starting from zero at point 0);
  the region's invariant, which carries the scratch buffer at exactly that sum from one point to the next; and the
  obligation that the body, at every point, takes the invariant before the point to the invariant after it.
-/
import proofs.«140489_j65704409694815_2_alg».proof.Proof.GramRunsBits

-- membership in a rectangle of these extents recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter, which the run instantiates
variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds the block at every point, for any proof data over these arrays whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-! ## What one point leaves, in each situation -/

/-- An idle output buffer's contents are never consulted: a placeholder. -/
def idleOut : Vec F S128x128 .f32 := outView.read (Elt F) (outView.writes (Elt F) outView.junk [])

/-- The running sum after the FIRST point. -/
def accFirstAt (c : Dev nD) (t : Fin cfg0.N) (h0 : isFirst (grid0.coords t)) (h1 : ¬isLast (grid0.coords t)) : Vec F S128x128 .f32 :=
  accView.read (Elt F) (accView.writes (Elt F) accView.junk (runFirst c (grid0.coords t) (inBuf t) (inBuf_whole t) (outBuf t) (outBuf_whole t) accBuf (Memref.isWhole_whole _) h0 h1 (blk0 V c 0 t)).2.1)
theorem accCover_first (c : Dev nD) (t : Fin cfg0.N) (h0 : isFirst (grid0.coords t)) (h1 : ¬isLast (grid0.coords t)) (y : S128x128.Idx) :
    ∃ pc ∈ (runFirst c (grid0.coords t) (inBuf t) (inBuf_whole t) (outBuf t) (outBuf_whole t) accBuf (Memref.isWhole_whole _) h0 h1 (blk0 V c 0 t)).2.1, y ∈ pc.1.set :=
  View.cover_of_tiledL _ S128x128.size (by sl_kernel_rfl) y

/-- The running sum after a MIDDLE point, over the sum `xs` the point before left. -/
def accMiddleAt (c : Dev nD) (t : Fin cfg0.N) (h0 : ¬isFirst (grid0.coords t)) (h1 : ¬isLast (grid0.coords t)) (xs : Vec F S128x128 .f32) : Vec F S128x128 .f32 :=
  accView.read (Elt F) (accView.writes (Elt F) accView.junk (runMiddle c (grid0.coords t) (inBuf t) (inBuf_whole t) (outBuf t) (outBuf_whole t) accBuf (Memref.isWhole_whole _) h0 h1 (blk0 V c 0 t) xs).2.1)
theorem accCover_middle (c : Dev nD) (t : Fin cfg0.N) (h0 : ¬isFirst (grid0.coords t)) (h1 : ¬isLast (grid0.coords t)) (xs : Vec F S128x128 .f32) (y : S128x128.Idx) :
    ∃ pc ∈ (runMiddle c (grid0.coords t) (inBuf t) (inBuf_whole t) (outBuf t) (outBuf_whole t) accBuf (Memref.isWhole_whole _) h0 h1 (blk0 V c 0 t) xs).2.1, y ∈ pc.1.set :=
  View.cover_of_tiledL _ S128x128.size (by sl_kernel_rfl) y

/-- The running sum and the output buffer after the LAST point. -/
def accLastAt (c : Dev nD) (t : Fin cfg0.N) (h0 : ¬isFirst (grid0.coords t)) (h1 : isLast (grid0.coords t)) (xs : Vec F S128x128 .f32) : Vec F S128x128 .f32 :=
  accView.read (Elt F) (accView.writes (Elt F) accView.junk (runLast c (grid0.coords t) (inBuf t) (inBuf_whole t) (outBuf t) (outBuf_whole t) accBuf (Memref.isWhole_whole _) h0 h1 (blk0 V c 0 t) xs).2.1)
theorem accCover_last (c : Dev nD) (t : Fin cfg0.N) (h0 : ¬isFirst (grid0.coords t)) (h1 : isLast (grid0.coords t)) (xs : Vec F S128x128 .f32) (y : S128x128.Idx) :
    ∃ pc ∈ (runLast c (grid0.coords t) (inBuf t) (inBuf_whole t) (outBuf t) (outBuf_whole t) accBuf (Memref.isWhole_whole _) h0 h1 (blk0 V c 0 t) xs).2.1, y ∈ pc.1.set :=
  View.cover_of_tiledL _ S128x128.size (by sl_kernel_rfl) y
def outLastAt (c : Dev nD) (t : Fin cfg0.N) (h0 : ¬isFirst (grid0.coords t)) (h1 : isLast (grid0.coords t)) (xs : Vec F S128x128 .f32) : Vec F S128x128 .f32 :=
  outView.read (Elt F) (outView.writes (Elt F) outView.junk (runLast c (grid0.coords t) (inBuf t) (inBuf_whole t) (outBuf t) (outBuf_whole t) accBuf (Memref.isWhole_whole _) h0 h1 (blk0 V c 0 t) xs).1)
theorem outCover_last (c : Dev nD) (t : Fin cfg0.N) (h0 : ¬isFirst (grid0.coords t)) (h1 : isLast (grid0.coords t)) (xs : Vec F S128x128 .f32) (y : S128x128.Idx) :
    ∃ pc ∈ (runLast c (grid0.coords t) (inBuf t) (inBuf_whole t) (outBuf t) (outBuf_whole t) accBuf (Memref.isWhole_whole _) h0 h1 (blk0 V c 0 t) xs).1, y ∈ pc.1.set :=
  View.cover_of_tiledL _ S128x128.size (by sl_kernel_rfl) y

/-! ## The accumulation over the grid -/

theorem lt8 {n : ℕ} (hn : n < cfg0.N) : n < 8 := lt_of_lt_of_eq hn (show cfg0.N = 8 from N_0)

/-- After point `n`: (the output buffer, the running sum). Point 0 starts the sum; point `n+1` adds its block to what
    point `n` left, and the last point also copies the total out. -/
def gramAt (c : Dev nD) : (n : ℕ) → n < cfg0.N → Vec F S128x128 .f32 × Vec F S128x128 .f32
  | 0, hn => (idleOut, accFirstAt V c ⟨0, hn⟩ ((isFirst_iff ⟨0, hn⟩).mpr (Nat.zero_mod _)) (fun h => by have h' := (isLast_iff ⟨0, hn⟩).mp h; (try dsimp only at h'); omega))
  | n + 1, hn =>
    if h1 : (n + 1) % 8 = 7 then
      (outLastAt V c ⟨n + 1, hn⟩ (fun h => by have h' := (isFirst_iff ⟨n + 1, hn⟩).mp h; have := lt8 hn; (try dsimp only at h'); omega) ((isLast_iff ⟨n + 1, hn⟩).mpr h1) (gramAt c n (Nat.lt_of_succ_lt hn)).2,
       accLastAt V c ⟨n + 1, hn⟩ (fun h => by have h' := (isFirst_iff ⟨n + 1, hn⟩).mp h; have := lt8 hn; (try dsimp only at h'); omega) ((isLast_iff ⟨n + 1, hn⟩).mpr h1) (gramAt c n (Nat.lt_of_succ_lt hn)).2)
    else
      (idleOut, accMiddleAt V c ⟨n + 1, hn⟩ (fun h => by have h' := (isFirst_iff ⟨n + 1, hn⟩).mp h; have := lt8 hn; (try dsimp only at h'); omega) (fun h => h1 ((isLast_iff ⟨n + 1, hn⟩).mp h)) (gramAt c n (Nat.lt_of_succ_lt hn)).2)

theorem gramAt_first (c : Dev nD) (t : Fin cfg0.N) (h0 : t.val % 8 = 0) (h1 : ¬t.val % 8 = 7) :
    gramAt V c t.val t.isLt = (idleOut, accFirstAt V c t ((isFirst_iff t).mpr h0) (fun h => h1 ((isLast_iff t).mp h))) := by
  obtain ⟨n, hn⟩ := t
  cases n with
  | zero => exact rfl
  | succ n => exact (by exfalso; have := lt8 hn; (try dsimp only at h0); omega)

theorem gramAt_middle (c : Dev nD) (t : Fin cfg0.N) (h0 : ¬t.val % 8 = 0) (h1 : ¬t.val % 8 = 7) :
    gramAt V c t.val t.isLt = (idleOut, accMiddleAt V c t (fun h => h0 ((isFirst_iff t).mp h)) (fun h => h1 ((isLast_iff t).mp h)) (gramAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

theorem gramAt_last (c : Dev nD) (t : Fin cfg0.N) (h0 : ¬t.val % 8 = 0) (h1 : t.val % 8 = 7) :
    gramAt V c t.val t.isLt = (outLastAt V c t (fun h => h0 ((isFirst_iff t).mp h)) ((isLast_iff t).mpr h1) (gramAt V c (t.val - 1) (Nat.lt_of_le_of_lt (Nat.sub_le _ _) t.isLt)).2,
      accLastAt V c t (fun h => h0 ((isFirst_iff t).mp h)) ((isLast_iff t).mpr h1) (gramAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-! ## The region's invariant -/

/-- Before position `n`: at the start what the launch hands over (the scratch at anything); afterwards the scratch at the
    running sum the point before left, the other scoped buffers at anything, the generator register at some state. -/
def PhiG (c : Dev nD) : (n : ℕ) → n ≤ cfg0.N → sProp 𝕄
  | 0, _ => Pipeline.ΦA spec0 c
  | n + 1, hn => iprop(iprop(owns (c : Thread nD τ) accBuf fullShare ((gramAt V c n hn).2) ∗ others c) ∗ (∃ r, prngReg c r))

theorem PhiG_zero (c : Dev nD) (n : ℕ) (h : n ≤ cfg0.N) (hz : n = 0) : PhiG V c n h = Pipeline.ΦA spec0 c := by
  subst hz; rfl
theorem PhiG_succ (c : Dev nD) (n : ℕ) (hn : n < cfg0.N) :
    PhiG V c (n + 1) hn = iprop(iprop(owns (c : Thread nD τ) accBuf fullShare ((gramAt V c n hn).2) ∗ others c) ∗ (∃ r, prngReg c r)) := rfl
theorem PhiG_pos (c : Dev nD) (n : ℕ) (h : n ≤ cfg0.N) (hz : n ≠ 0) :
    PhiG V c n h = iprop(iprop(owns (c : Thread nD τ) accBuf fullShare ((gramAt V c (n - 1) (by omega)).2) ∗ others c) ∗ (∃ r, prngReg c r)) := by
  cases n with
  | zero => exact absurd rfl hz
  | succ n => rfl

/-! ## The proof data -/

/-- Region 0's proof data on core `c`: the arrays as the region finds them; after point `t` the row block in place and the
    output buffer at `gramAt`'s first component; the invariant `PhiG`; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => (gramAt V c t.val t.isLt).1
  Φ t := PhiG V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiG_castSucc (c : Dev nD) (t : Fin cfg0.N) :
    (dat0 V c).Φ t.castSucc = PhiG V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = (gramAt V c t.val t.isLt).1 := by dsimp only [dat0]
theorem before0_0 (c : Dev nD) (t : Fin cfg0.N) (d) : (dat0 V c).before 0 t d = blk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (inBuf t) fullShare ((dat0 V c).before 0 t d))
    ∗ (∃ d, owns (c : Thread nD τ) (outBuf t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the closed forms say which situation the point is in; the invariant hands the body the scratch at
    the sum so far (at anything, at the first point) and takes it back at this point's sum; the output buffer is handed back
    untouched before the last point and at the total at the last. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiG V c (t.val + 1) t.isLt from rfl, PhiG_succ]
  have hN : t.val < 8 := lt8 t.isLt
  rw [show (dat0 V c).leavesExact 0 t = owns (c : Thread nD τ) (inBuf t) fullShare ((dat0 V c).after 0 t) from by
    unfold Dat.leavesExact; rw [in_live t], after0_0]
  by_cases h0 : t.val % 8 = 0
  · have h1 : ¬t.val % 8 = 7 := by omega
    have hz : t.val = 0 := by omega
    rw [Dat.leavesExact_idle (dat0 V c) 1 t (out_idle t (fun h => h1 ((isLast_iff t).mp h))) (out_noflush t (fun h => h1 ((isLast_iff t).mp h)))]
    rw [gramAt_first V c t h0 h1]
    unfold accFirstAt; (try dsimp only)
    rw [PhiG_castSucc V c t, PhiG_zero V c _ _ hz, PhiA0_eq]
    iintro ⟨⟨⟨HS0, Hoth⟩, Hg⟩, Ho, ⟨%d0, H0⟩, ⟨%d1, H1⟩⟩
    iapply ((runFirst c (grid0.coords t) _ _ _ _ _ _ ((isFirst_iff t).mpr h0) (fun h => h1 ((isLast_iff t).mp h)) (blk0 V c 0 t)).2.2 _ Set.univ _)
    isplitl [H0]; · iexact H0
    isplitl [H1]; · iexact H1
    isplitl [HS0]; · iexact HS0
    iintro ⟨H0, H1, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (accCover_first V c t _ _)
        iexact Hoth
      iexact Hg
    isplitl [Ho]; · iexact Ho
    isplitl [H0]; · iexact H0
    iexists _; iexact H1
  · have hz : t.val ≠ 0 := fun e => h0 (by rw [e])
    by_cases h1 : t.val % 8 = 7
    · rw [show (dat0 V c).leavesExact 1 t = owns (c : Thread nD τ) (outBuf t) fullShare ((dat0 V c).after 1 t) from by
        unfold Dat.leavesExact; rw [out_live t ((isLast_iff t).mpr h1)], after0_1]
      rw [gramAt_last V c t h0 h1]
      unfold outLastAt accLastAt; (try dsimp only)
      rw [PhiG_castSucc V c t, PhiG_pos V c _ _ hz]
      iintro ⟨⟨⟨HS0, Hoth⟩, Hg⟩, Ho, ⟨%d0, H0⟩, ⟨%d1, H1⟩⟩
      iapply ((runLast c (grid0.coords t) _ _ _ _ _ _ (fun h => h0 ((isFirst_iff t).mp h)) ((isLast_iff t).mpr h1) (blk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accCover_last V c t _ _ _)
          iexact Hoth
        iexact Hg
      isplitl [Ho]; · iexact Ho
      isplitl [H0]; · iexact H0
      unfold owns; iexists _; isplitr
      swap; · iexact H1
      ipureintro; exact View.read_writes_of_cover _ _ _ _ _ (outCover_last V c t _ _ _)
    · rw [Dat.leavesExact_idle (dat0 V c) 1 t (out_idle t (fun h => h1 ((isLast_iff t).mp h))) (out_noflush t (fun h => h1 ((isLast_iff t).mp h)))]
      rw [gramAt_middle V c t h0 h1]
      unfold accMiddleAt; (try dsimp only)
      rw [PhiG_castSucc V c t, PhiG_pos V c _ _ hz]
      iintro ⟨⟨⟨HS0, Hoth⟩, Hg⟩, Ho, ⟨%d0, H0⟩, ⟨%d1, H1⟩⟩
      iapply ((runMiddle c (grid0.coords t) _ _ _ _ _ _ (fun h => h0 ((isFirst_iff t).mp h)) (fun h => h1 ((isLast_iff t).mp h)) (blk0 V c 0 t) _).2.2 _ Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accCover_middle V c t _ _ _)
          iexact Hoth
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiG V c 0 (Nat.zero_le _) from rfl, PhiG_zero V c 0 _ rfl]
  try exact Idealize.SL.BI.Entails.refl _

/-- After the last point the invariant gives that back: the sum's name is forgotten. -/
theorem hout0 (c : Dev nD) : (dat0 V c).Φ (Fin.last cfg0.N) ⊢ Pipeline.ΦA spec0 c := by
  rw [show (dat0 V c).Φ (Fin.last cfg0.N) = PhiG V c (Fin.last cfg0.N).val (Nat.le_of_lt_succ (Fin.last cfg0.N).isLt) from rfl,
    PhiG_pos V c _ _ (by rw [Fin.val_last]; have : cfg0.N = 8 := N_0; omega), PhiA0_eq]
  iintro ⟨⟨HS0, Hoth⟩, Hg⟩
  isplitl [HS0 Hoth]
  · isplitl [HS0]
    · iexists _; iexact HS0
    iexact Hoth
  iexact Hg

end Cert.Kernel.Frm

end
-- ==== Proof.ScoresRegionBits.lean ====
/-
  Region 1: the per-row scores. Each grid point stages one block of 1024 rows of the two normalized arrays together with
  the whole Gram matrix and the column-sum row (both resident: fetched once, at the first point), and stores the
  block's 1024 scores. The body has one control path and keeps nothing between points, so after a point the output
  buffer is a fixed function of the four staged blocks.
-/
import proofs.«140489_j65704409694815_2_alg».proof.Proof.Gen.Kernel.Launch
import proofs.«140489_j65704409694815_2_alg».proof.Proof.Gen.Kernel.Skeleton
import proofs.«140489_j65704409694815_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Frm1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter, which the run instantiates
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds its block at every point, fetched there or not (a resident window's index never moves). -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: each buffer whole -/

abbrev rRows : Rect S1024x128 := Rect.unit (s := S1024x128) ![0, 0] S1024x128.size inb_S1024x128_S1024x128_0_0
abbrev rGram : Rect S128x128 := Rect.unit (s := S128x128) ![0, 0] S128x128.size inb_S128x128_S128x128_0_0
abbrev rSum : Rect S1x128 := Rect.unit (s := S1x128) ![0, 0] S1x128.size inb_S1x128_S1x128_0_0
abbrev rOut : Rect S1024x1 := Rect.unit (s := S1024x1) ![0, 0] S1024x1.size inb_S1024x1_S1024x1_0_0

/-- The output buffer after the body: the one store of the block's scores, a function of the four staged blocks. -/
def scoresOut (x0 x1 : Vec F S1024x128 .f32) (x2 : Vec F S128x128 .f32) (x3 : Vec F S1x128 .f32) : Vec F S1024x1 .f32 :=
  View.canon [⟨rOut, k1_pay1 (View.ld x0 rRows) (View.ld x1 rRows) (View.ld x2 rGram) (View.ld x3 rSum)⟩]

/-- The store covers the buffer. -/
theorem scoresCover (p0 : Vec F S1024x1 .f32) (y : S1024x1.Idx) :
    ∃ pc ∈ ([⟨rOut, p0⟩] : List (View.Piece (Elt F) S1024x1 .f32)), y ∈ pc.1.set :=
  View.cover_of_tiled [⟨rOut, p0⟩] S1024x1.size (by rfl) y

set_option maxHeartbeats 1000000 in
/-- The body on whole staging buffers, the inputs' at their contents and the output's at anything, runs to the
    continuation holding the inputs' as they were and the output's at `scoresOut` of them. -/
theorem sound_scores (c : Dev nD) (E : Set ℕ) (i : grid1.Coords) (arg1 : Memref sig .tc .vmem S1024x128 .f32) (harg1 : arg1.IsWhole) (arg2 : Memref sig .tc .vmem S1024x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1024x1 .f32) (harg5 : arg5.IsWhole)
    (x0 x1 : Vec F S1024x128 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (scoresOut x0 x1 x2 x3)) -∗ K ⟨⟩))
      ⊢ wp frame (wpE (defs₀ (F := F)) Variants.none c none) E (cc1__scores_kernel i arg1 harg1 arg2 harg2 arg3 harg3 arg4 harg4 arg5 harg5) K := by
  simp only [cc1__scores_kernel_eq_skeleton]; unfold cc1__scores_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (scoresCover _)

/-! ## The proof data -/

/-- Region 1's proof data on core `c`: the arrays as the region finds them; after point `t` each input's buffer at its block and
    the output's at `scoresOut` of the blocks; the plain invariant (the scoped rest and the generator register, untouched);
    nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => scoresOut (blk1 V c 0 t) (blk1 V c 1 t) (blk1 V c 2 t) (blk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = scoresOut (blk1 V c 0 t) (blk1 V c 1 t) (blk1 V c 2 t) (blk1 V c 3 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_scores c Set.univ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frm1

end
-- ==== Proof.WholeRunBits.lean ====
/-
  The whole program: host operations, region 0 (the Gram matrix), region 1 (the scores), host operations. Between two
  items every unscoped buffer of the core is held at a named valuation; a region changes exactly one buffer — its
  result array — and the valuation after it is the one before it updated there with what the region's write-backs
  leave. Each region is entered by splitting its windows' arrays out of the held buffers and left by putting them back;
  the generator register and the (empty) dues of the core ride along unchanged.
-/
import proofs.«140489_j65704409694815_2_alg».proof.Proof.Gen.Kernel.Regions
import proofs.«140489_j65704409694815_2_alg».proof.Proof.GramDataBits
import proofs.«140489_j65704409694815_2_alg».proof.Proof.ScoresRegionBits

-- membership in a rectangle of these extents recurses once per coordinate of the long axes
set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the regions' boundaries -/

/-- Region 0 is entered from the contents after the host prefix, read at the TensorCore's references. -/
abbrev E5 : (c : Dev nD) → (b : Ref sig .tc) → Buf (Elt F) ((c : Thread nD τ).loc b) := fun c b => V5 m c b

/-- What region 0's write-backs leave in the Gram matrix's array. -/
def gramOut (c : Dev nD) : Buf (Elt F) ((c : Thread nD τ).loc main_v17) := (Frm.dat0 (E5 m) c).arrAt 1 cfg0.N

/-- After region 0: the entry contents with the Gram matrix's array at what the region left. -/
def W6 (c : Dev nD) : Valuation τ sig (Elt F) := Function.update (V5 m c) main_v17 (gramOut m c)
abbrev E6 : (c : Dev nD) → (b : Ref sig .tc) → Buf (Elt F) ((c : Thread nD τ).loc b) := fun c b => W6 m c b

/-- What region 1's write-backs leave in the scores' array. -/
def scoresArr (c : Dev nD) : Buf (Elt F) ((c : Thread nD τ).loc main_v18) := (Frm1.dat1 (E6 m) c).arrAt 4 cfg1.N

/-- The regions' results as the family the generated boundary valuations are written over. -/
def outs : Outs (F := F) := fun _ r c =>
  if h : r = main_v17 then h ▸ gramOut m c
  else if h' : r = main_v18 then h' ▸ scoresArr m c
  else m ((c : Thread nD τ).loc r)

theorem outs_gram (n : ℕ) (c : Dev nD) : outs m n main_v17 c = gramOut m c := by
  unfold outs; rw [dif_pos rfl]
theorem outs_scores (n : ℕ) (c : Dev nD) : outs m n main_v18 c = scoresArr m c := by
  unfold outs; rw [dif_neg (by decide), dif_pos rfl]

theorem V6_eq (c : Dev nD) : V6 m (outs m) c = W6 m c := by
  unfold W6; rw [← outs_gram m 6 c]

/-! ## The proof data family -/

/-- Each region's proof data at its entry contents: a literal match on the region's number. -/
def pdats : (p : Fin 2) → (c : Dev nD) → Dat τ (Elt F) Unit ℕ (UR sig nD τ) ℕ (cfgs p) c
  | ⟨0, _⟩ => fun c => Frm.dat0 (E5 m) c
  | ⟨1, _⟩ => fun c => Frm1.dat1 (E6 m) c

abbrev L : GSem nD τ sig → Finset Unit := fun _ => ∅
abbrev lv : GSem nD τ sig → Unit → ℕ := fun _ _ => 0
/-- What rides beside the buffers through every item: the generator register at some state and the core's dues, empty. -/
abbrev R (c : Dev nD) : sProp 𝕄 := iprop((∃ r, prngReg c r) ∗ ∃ W, owes (c : Thread nD τ) (0 : CellTallies nD τ sig Unit) W)

/-! ## Region 0's arrays at its exit -/

theorem hF0 (c : Dev nD) (w : Fin cfg0.W) :
    (Frm.dat0 (E5 m) c).arrAt w cfg0.N = (fun b : Ref sig .tc => V6 m (outs m) c b) (Pipeline.arrRef spec0 w) := by
  match w with
  | ⟨0, _⟩ =>
    exact (((Frm.dat0 (E5 m) c).arrAt_in 0 rfl _).trans (Frm.A_eq0 (E5 m) c 0)).trans (V6_of m (outs m) c main_v14 (by decide)).symm
  | ⟨1, _⟩ =>
    show _ = Function.update (V5 m c) main_v17 (outs m 6 main_v17 c) main_v17
    rw [Function.update_self, outs_gram]; rfl

theorem hrest0 (c : Dev nD) : ∀ b : Ref sig .tc, b ∉ Finset.univ.image (Pipeline.arrRef spec0) →
    (fun b : Ref sig .tc => V6 m (outs m) c b) b = E5 m c b := fun b hb =>
  V6_of m (outs m) c b (by
    intro hm; rw [List.mem_singleton] at hm; subst hm
    exact hb (Finset.mem_image.mpr ⟨1, Finset.mem_univ _, rfl⟩))

/-! ## Region 1's arrays at its exit -/

theorem E6_eq (c : Dev nD) (b : Ref sig .tc) : E6 m c b = V6 m (outs m) c b := (congrFun (V6_eq m c) _).symm

theorem hF1 (c : Dev nD) (w : Fin cfg1.W) :
    (Frm1.dat1 (E6 m) c).arrAt w cfg1.N = (fun b : Ref sig .tc => V7 m (outs m) c b) (Pipeline.arrRef spec1 w) := by
  match w with
  | ⟨0, _⟩ =>
    exact ((((Frm1.dat1 (E6 m) c).arrAt_in 0 rfl _).trans (Frm1.A_eq1 (E6 m) c 0)).trans (E6_eq m c main_v9)).trans (V7_of m (outs m) c main_v9 (by decide)).symm
  | ⟨1, _⟩ =>
    exact ((((Frm1.dat1 (E6 m) c).arrAt_in 1 rfl _).trans (Frm1.A_eq1 (E6 m) c 1)).trans (E6_eq m c main_v14)).trans (V7_of m (outs m) c main_v14 (by decide)).symm
  | ⟨2, _⟩ =>
    exact ((((Frm1.dat1 (E6 m) c).arrAt_in 2 rfl _).trans (Frm1.A_eq1 (E6 m) c 2)).trans (E6_eq m c main_v17)).trans (V7_of m (outs m) c main_v17 (by decide)).symm
  | ⟨3, _⟩ =>
    exact ((((Frm1.dat1 (E6 m) c).arrAt_in 3 rfl _).trans (Frm1.A_eq1 (E6 m) c 3)).trans (E6_eq m c main_v16)).trans (V7_of m (outs m) c main_v16 (by decide)).symm
  | ⟨4, _⟩ =>
    show _ = Function.update (V6 m (outs m) c) main_v18 (outs m 7 main_v18 c) main_v18
    rw [Function.update_self, outs_scores]; rfl

theorem hrest1 (c : Dev nD) : ∀ b : Ref sig .tc, b ∉ Finset.univ.image (Pipeline.arrRef spec1) →
    (fun b : Ref sig .tc => V7 m (outs m) c b) b = (fun b : Ref sig .tc => V6 m (outs m) c b) b := fun b hb =>
  V7_of m (outs m) c b (by
    intro hm; rw [List.mem_singleton] at hm; subst hm
    exact hb (Finset.mem_image.mpr ⟨4, Finset.mem_univ _, rfl⟩))

/-! ## The regions as segments -/

set_option backward.isDefEq.respectTransparency.types false in
/-- REGION 0 over the thread state: entered from every unscoped buffer at the contents after the host prefix, left with
    the Gram matrix's array at what the region wrote. The scratch buffer enters the invariant among the scoped rest and
    comes back among it. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Frm.body_obligation0 (E5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Frm.hin0 (E5 m) c)
    unfold Pipeline.ΦA
    iintro ⟨Hp, -, Hr⟩
    isplitl [Hr]; · iexact Hr
    iexact Hp
  hout c := by
    refine BIBase.Entails.trans (Frm.hout0 (E5 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (fun b : Ref sig .tc => V6 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from the contents region 0 left, left with the scores' array at what the region wrote. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Frm1.body_obligation1 (E6 m) c).loose
  hwaits := Pipeline.hwaits_of_owed_zero _ _ _ _ L lv 1 fun _ _ => rfl
  pre c := iprop(StableHlo.held (c : Thread nD τ) (Pipeline.ucRefs τ sig) (V6 m (outs m) c) ∗ R c)
  post c := iprop(StableHlo.held (c : Thread nD τ) (Pipeline.ucRefs τ sig) (V7 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b : Ref sig .tc => V6 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b : Ref sig .tc => V6 m (outs m) c b) fun w => E6_eq m c _
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b : Ref sig .tc => V6 m (outs m) c b) (fun b : Ref sig .tc => V7 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- Every weakly fair execution of the program terminates, nothing faulting, with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond m (EP := emb₁) (ι := ()) (𝒱₀ := Variants.none) (L := L) (lv := lv) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

end Cert.Kernel.Whole

end
-- ==== Proof.GramRunsIdeal.lean ====
/-
  Region 0: the Gram accumulation M = Σ_blocks Xᵀ X over the eight row blocks of the normalized documents.
  The body keeps its running sum in a scratch buffer that lives across grid points: at the first point the
  scratch is zeroed before the block's product is added, at every point the block's product is added to it, and at
  the last point the sum is copied into the output window. This module runs the body once for each of the three
  situations a grid point can be in — first, middle, last — and records, as lists of written pieces, what the
  scratch and the output buffer hold afterwards.
-/
import proofs.«140489_j65704409694815_2_alg».proof.Proof.Gen.KernelIdeal.Launch
import proofs.«140489_j65704409694815_2_alg».proof.Proof.Gen.KernelIdeal.Skeleton
import proofs.«140489_j65704409694815_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which situation a grid point is in -/

/-- The body's first test: the point is the first of the grid (the scratch is zeroed). -/
abbrev isFirst (i : grid0.Coords) : Prop :=
  (Scalar.cmpi .ne (Scalar.extui (Scalar.cmpi .eq (BitVec.ofNat 32 (i 0).val) 0#32)) 0#32) = 1#1
/-- It holds exactly at point 0. -/
theorem isFirst_iff : ∀ t : Fin cfg0.N, isFirst (grid0.coords t) ↔ t.val % 8 = 0 :=
  (by decide +kernel : ∀ t : Fin grid0.N, isFirst (grid0.coords t) ↔ t.val % 8 = 0)

/-- The body's second test: the point is the last of the grid (the sum is copied out). -/
abbrev isLast (i : grid0.Coords) : Prop := k0_cond2 i = 1#1
/-- It holds exactly at point 7. -/
theorem isLast_iff : ∀ t : Fin cfg0.N, isLast (grid0.coords t) ↔ t.val % 8 = 7 :=
  (by decide +kernel : ∀ t : Fin grid0.N, isLast (grid0.coords t) ↔ t.val % 8 = 7)

/-- The input window is live at every point. -/
theorem in_live : ∀ t : Fin cfg0.N, cfg0.idle 0 (grid0.coords t) = false := by decide +kernel
/-- Before the last point the output window is idle (nothing is stored into it) -/
theorem out_idle : ∀ t : Fin cfg0.N, ¬isLast (grid0.coords t) → cfg0.idle 1 (grid0.coords t) = true := by decide +kernel
/-- and it is not written back; -/
theorem out_noflush : ∀ t : Fin cfg0.N, ¬isLast (grid0.coords t) → (cfg0.win 1).flush t = false := by decide +kernel
/-- at the last point it is live. -/
theorem out_live : ∀ t : Fin cfg0.N, isLast (grid0.coords t) → cfg0.idle 1 (grid0.coords t) = false := by decide +kernel

/-! ## The buffers the body is called with -/

/-- The row block's staging buffer at point `t`, -/
abbrev inBuf (t : Fin cfg0.N) : Memref sig .tc .vmem S1024x128 .f32 := win0_0.stage (cfg0.slots t 0)
abbrev inBuf_whole (t : Fin cfg0.N) : (inBuf t).IsWhole := hstage0_0 ((cfg0.slots t 0).cast nbuf0_0)
/-- the output's, -/
abbrev outBuf (t : Fin cfg0.N) : Memref sig .tc .vmem S128x128 .f32 := win0_1.stage (cfg0.slots t 1)
abbrev outBuf_whole (t : Fin cfg0.N) : (outBuf t).IsWhole := hstage0_1 ((cfg0.slots t 1).cast nbuf0_1)
/-- and the running sum's scratch buffer, which no window stages. -/
abbrev accBuf : Memref sig .tc .vmem S128x128 .f32 := Memref.whole cc0_scratch0
/-- Views through which contents of the two 128×128 buffers are stated. -/
abbrev outView : View sig .tc .vmem S128x128 .f32 := (Memref.whole cc0_stg1_0 : Memref sig .tc .vmem S128x128 .f32).view
abbrev accView : View sig .tc .vmem S128x128 .f32 := (accBuf).view

/-- The core's other scoped buffers that region 0 does not stage (region 1's staging buffers), each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- What the launch hands the region besides its windows: the running sum's buffer at some contents, the other scoped
    buffers, and the generator register at some state. -/
theorem PhiA0_eq (c : Dev nD) :
    (Pipeline.ΦA spec0 c : sProp 𝕄)
      = iprop(iprop((∃ d, owns (c : Thread nD τ) accBuf fullShare d) ∗ others c) ∗ (∃ r, prngReg c r)) := by
  unfold Pipeline.ΦA; rw [scopedRest0_eq]; simp only [accBuf, owns_whole]; try rfl

/-! ## The body, run in each situation -/

set_option maxHeartbeats 1000000 in
/-- FIRST point: the scratch holds anything; it is zeroed, the block's product added; the output buffer is untouched.
    The pieces the scratch ends with are found by the run. -/
noncomputable def runFirst (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (hc0 : isFirst i) (hc1 : ¬isLast i)
    (x0 : Vec F S1024x128 .f32) :
    Σ' (L1 : List (View.Piece (Elt F) S128x128 .f32)), { LS0 : List (View.Piece (Elt F) S128x128 .f32) //
      ∀ (xi1 : Vec F S128x128 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__gram_kernel i arg1 harg1 arg2 harg2 arg3 harg3) K } := by
  refine ⟨[], ?_, fun xi1 E K => ?run⟩
  case run =>
    simp only [cc0__gram_kernel_eq_skeleton]; unfold cc0__gram_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- MIDDLE point: the scratch holds the sum so far `xs0`; the block's product is added; the output buffer is untouched. -/
noncomputable def runMiddle (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (hc0 : ¬isFirst i) (hc1 : ¬isLast i)
    (x0 : Vec F S1024x128 .f32) (xs0 : Vec F S128x128 .f32) :
    Σ' (L1 : List (View.Piece (Elt F) S128x128 .f32)), { LS0 : List (View.Piece (Elt F) S128x128 .f32) //
      ∀ (xi1 : Vec F S128x128 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__gram_kernel i arg1 harg1 arg2 harg2 arg3 harg3) K } := by
  refine ⟨[], ?_, fun xi1 E K => ?run⟩
  case run =>
    simp only [cc0__gram_kernel_eq_skeleton]; unfold cc0__gram_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- LAST point: the scratch holds the sum so far `xs0`; the block's product is added and the total copied into the
    output buffer, whatever that held. -/
noncomputable def runLast (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (hc0 : ¬isFirst i) (hc1 : isLast i)
    (x0 : Vec F S1024x128 .f32) (xs0 : Vec F S128x128 .f32) :
    Σ' (L1 : List (View.Piece (Elt F) S128x128 .f32)), { LS0 : List (View.Piece (Elt F) S128x128 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__gram_kernel i arg1 harg1 arg2 harg2 arg3 harg3) K } := by
  refine ⟨?_, ?_, fun E K => ?run⟩
  case run =>
    simp only [cc0__gram_kernel_eq_skeleton]; unfold cc0__gram_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.KernelIdeal.Frm

end
-- ==== Proof.GramDataIdeal.lean ====
/-
  Region 0, continued: what the running sum and the output buffer hold after each grid point, by recursion on the
  point (the sum after point n is the block's product added to the sum after point n−1, starting from zero at point 0);
  the region's invariant, which carries the scratch buffer at exactly that sum from one point to the next; and the
  obligation that the body, at every point, takes the invariant before the point to the invariant after it.
-/
import proofs.«140489_j65704409694815_2_alg».proof.Proof.GramRunsIdeal

-- membership in a rectangle of these extents recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter, which the run instantiates
variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds the block at every point, for any proof data over these arrays whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-! ## What one point leaves, in each situation -/

/-- An idle output buffer's contents are never consulted: a placeholder. -/
def idleOut : Vec F S128x128 .f32 := outView.read (Elt F) (outView.writes (Elt F) outView.junk [])

/-- The running sum after the FIRST point. -/
def accFirstAt (c : Dev nD) (t : Fin cfg0.N) (h0 : isFirst (grid0.coords t)) (h1 : ¬isLast (grid0.coords t)) : Vec F S128x128 .f32 :=
  accView.read (Elt F) (accView.writes (Elt F) accView.junk (runFirst c (grid0.coords t) (inBuf t) (inBuf_whole t) (outBuf t) (outBuf_whole t) accBuf (Memref.isWhole_whole _) h0 h1 (blk0 V c 0 t)).2.1)
theorem accCover_first (c : Dev nD) (t : Fin cfg0.N) (h0 : isFirst (grid0.coords t)) (h1 : ¬isLast (grid0.coords t)) (y : S128x128.Idx) :
    ∃ pc ∈ (runFirst c (grid0.coords t) (inBuf t) (inBuf_whole t) (outBuf t) (outBuf_whole t) accBuf (Memref.isWhole_whole _) h0 h1 (blk0 V c 0 t)).2.1, y ∈ pc.1.set :=
  View.cover_of_tiledL _ S128x128.size (by sl_kernel_rfl) y

/-- The running sum after a MIDDLE point, over the sum `xs` the point before left. -/
def accMiddleAt (c : Dev nD) (t : Fin cfg0.N) (h0 : ¬isFirst (grid0.coords t)) (h1 : ¬isLast (grid0.coords t)) (xs : Vec F S128x128 .f32) : Vec F S128x128 .f32 :=
  accView.read (Elt F) (accView.writes (Elt F) accView.junk (runMiddle c (grid0.coords t) (inBuf t) (inBuf_whole t) (outBuf t) (outBuf_whole t) accBuf (Memref.isWhole_whole _) h0 h1 (blk0 V c 0 t) xs).2.1)
theorem accCover_middle (c : Dev nD) (t : Fin cfg0.N) (h0 : ¬isFirst (grid0.coords t)) (h1 : ¬isLast (grid0.coords t)) (xs : Vec F S128x128 .f32) (y : S128x128.Idx) :
    ∃ pc ∈ (runMiddle c (grid0.coords t) (inBuf t) (inBuf_whole t) (outBuf t) (outBuf_whole t) accBuf (Memref.isWhole_whole _) h0 h1 (blk0 V c 0 t) xs).2.1, y ∈ pc.1.set :=
  View.cover_of_tiledL _ S128x128.size (by sl_kernel_rfl) y

/-- The running sum and the output buffer after the LAST point. -/
def accLastAt (c : Dev nD) (t : Fin cfg0.N) (h0 : ¬isFirst (grid0.coords t)) (h1 : isLast (grid0.coords t)) (xs : Vec F S128x128 .f32) : Vec F S128x128 .f32 :=
  accView.read (Elt F) (accView.writes (Elt F) accView.junk (runLast c (grid0.coords t) (inBuf t) (inBuf_whole t) (outBuf t) (outBuf_whole t) accBuf (Memref.isWhole_whole _) h0 h1 (blk0 V c 0 t) xs).2.1)
theorem accCover_last (c : Dev nD) (t : Fin cfg0.N) (h0 : ¬isFirst (grid0.coords t)) (h1 : isLast (grid0.coords t)) (xs : Vec F S128x128 .f32) (y : S128x128.Idx) :
    ∃ pc ∈ (runLast c (grid0.coords t) (inBuf t) (inBuf_whole t) (outBuf t) (outBuf_whole t) accBuf (Memref.isWhole_whole _) h0 h1 (blk0 V c 0 t) xs).2.1, y ∈ pc.1.set :=
  View.cover_of_tiledL _ S128x128.size (by sl_kernel_rfl) y
def outLastAt (c : Dev nD) (t : Fin cfg0.N) (h0 : ¬isFirst (grid0.coords t)) (h1 : isLast (grid0.coords t)) (xs : Vec F S128x128 .f32) : Vec F S128x128 .f32 :=
  outView.read (Elt F) (outView.writes (Elt F) outView.junk (runLast c (grid0.coords t) (inBuf t) (inBuf_whole t) (outBuf t) (outBuf_whole t) accBuf (Memref.isWhole_whole _) h0 h1 (blk0 V c 0 t) xs).1)
theorem outCover_last (c : Dev nD) (t : Fin cfg0.N) (h0 : ¬isFirst (grid0.coords t)) (h1 : isLast (grid0.coords t)) (xs : Vec F S128x128 .f32) (y : S128x128.Idx) :
    ∃ pc ∈ (runLast c (grid0.coords t) (inBuf t) (inBuf_whole t) (outBuf t) (outBuf_whole t) accBuf (Memref.isWhole_whole _) h0 h1 (blk0 V c 0 t) xs).1, y ∈ pc.1.set :=
  View.cover_of_tiledL _ S128x128.size (by sl_kernel_rfl) y

/-! ## The accumulation over the grid -/

theorem lt8 {n : ℕ} (hn : n < cfg0.N) : n < 8 := lt_of_lt_of_eq hn (show cfg0.N = 8 from N_0)

/-- After point `n`: (the output buffer, the running sum). Point 0 starts the sum; point `n+1` adds its block to what
    point `n` left, and the last point also copies the total out. -/
def gramAt (c : Dev nD) : (n : ℕ) → n < cfg0.N → Vec F S128x128 .f32 × Vec F S128x128 .f32
  | 0, hn => (idleOut, accFirstAt V c ⟨0, hn⟩ ((isFirst_iff ⟨0, hn⟩).mpr (Nat.zero_mod _)) (fun h => by have h' := (isLast_iff ⟨0, hn⟩).mp h; (try dsimp only at h'); omega))
  | n + 1, hn =>
    if h1 : (n + 1) % 8 = 7 then
      (outLastAt V c ⟨n + 1, hn⟩ (fun h => by have h' := (isFirst_iff ⟨n + 1, hn⟩).mp h; have := lt8 hn; (try dsimp only at h'); omega) ((isLast_iff ⟨n + 1, hn⟩).mpr h1) (gramAt c n (Nat.lt_of_succ_lt hn)).2,
       accLastAt V c ⟨n + 1, hn⟩ (fun h => by have h' := (isFirst_iff ⟨n + 1, hn⟩).mp h; have := lt8 hn; (try dsimp only at h'); omega) ((isLast_iff ⟨n + 1, hn⟩).mpr h1) (gramAt c n (Nat.lt_of_succ_lt hn)).2)
    else
      (idleOut, accMiddleAt V c ⟨n + 1, hn⟩ (fun h => by have h' := (isFirst_iff ⟨n + 1, hn⟩).mp h; have := lt8 hn; (try dsimp only at h'); omega) (fun h => h1 ((isLast_iff ⟨n + 1, hn⟩).mp h)) (gramAt c n (Nat.lt_of_succ_lt hn)).2)

theorem gramAt_first (c : Dev nD) (t : Fin cfg0.N) (h0 : t.val % 8 = 0) (h1 : ¬t.val % 8 = 7) :
    gramAt V c t.val t.isLt = (idleOut, accFirstAt V c t ((isFirst_iff t).mpr h0) (fun h => h1 ((isLast_iff t).mp h))) := by
  obtain ⟨n, hn⟩ := t
  cases n with
  | zero => exact rfl
  | succ n => exact (by exfalso; have := lt8 hn; (try dsimp only at h0); omega)

theorem gramAt_middle (c : Dev nD) (t : Fin cfg0.N) (h0 : ¬t.val % 8 = 0) (h1 : ¬t.val % 8 = 7) :
    gramAt V c t.val t.isLt = (idleOut, accMiddleAt V c t (fun h => h0 ((isFirst_iff t).mp h)) (fun h => h1 ((isLast_iff t).mp h)) (gramAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

theorem gramAt_last (c : Dev nD) (t : Fin cfg0.N) (h0 : ¬t.val % 8 = 0) (h1 : t.val % 8 = 7) :
    gramAt V c t.val t.isLt = (outLastAt V c t (fun h => h0 ((isFirst_iff t).mp h)) ((isLast_iff t).mpr h1) (gramAt V c (t.val - 1) (Nat.lt_of_le_of_lt (Nat.sub_le _ _) t.isLt)).2,
      accLastAt V c t (fun h => h0 ((isFirst_iff t).mp h)) ((isLast_iff t).mpr h1) (gramAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-! ## The region's invariant -/

/-- Before position `n`: at the start what the launch hands over (the scratch at anything); afterwards the scratch at the
    running sum the point before left, the other scoped buffers at anything, the generator register at some state. -/
def PhiG (c : Dev nD) : (n : ℕ) → n ≤ cfg0.N → sProp 𝕄
  | 0, _ => Pipeline.ΦA spec0 c
  | n + 1, hn => iprop(iprop(owns (c : Thread nD τ) accBuf fullShare ((gramAt V c n hn).2) ∗ others c) ∗ (∃ r, prngReg c r))

theorem PhiG_zero (c : Dev nD) (n : ℕ) (h : n ≤ cfg0.N) (hz : n = 0) : PhiG V c n h = Pipeline.ΦA spec0 c := by
  subst hz; rfl
theorem PhiG_succ (c : Dev nD) (n : ℕ) (hn : n < cfg0.N) :
    PhiG V c (n + 1) hn = iprop(iprop(owns (c : Thread nD τ) accBuf fullShare ((gramAt V c n hn).2) ∗ others c) ∗ (∃ r, prngReg c r)) := rfl
theorem PhiG_pos (c : Dev nD) (n : ℕ) (h : n ≤ cfg0.N) (hz : n ≠ 0) :
    PhiG V c n h = iprop(iprop(owns (c : Thread nD τ) accBuf fullShare ((gramAt V c (n - 1) (by omega)).2) ∗ others c) ∗ (∃ r, prngReg c r)) := by
  cases n with
  | zero => exact absurd rfl hz
  | succ n => rfl

/-! ## The proof data -/

/-- Region 0's proof data on core `c`: the arrays as the region finds them; after point `t` the row block in place and the
    output buffer at `gramAt`'s first component; the invariant `PhiG`; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => (gramAt V c t.val t.isLt).1
  Φ t := PhiG V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiG_castSucc (c : Dev nD) (t : Fin cfg0.N) :
    (dat0 V c).Φ t.castSucc = PhiG V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = (gramAt V c t.val t.isLt).1 := by dsimp only [dat0]
theorem before0_0 (c : Dev nD) (t : Fin cfg0.N) (d) : (dat0 V c).before 0 t d = blk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (inBuf t) fullShare ((dat0 V c).before 0 t d))
    ∗ (∃ d, owns (c : Thread nD τ) (outBuf t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the closed forms say which situation the point is in; the invariant hands the body the scratch at
    the sum so far (at anything, at the first point) and takes it back at this point's sum; the output buffer is handed back
    untouched before the last point and at the total at the last. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiG V c (t.val + 1) t.isLt from rfl, PhiG_succ]
  have hN : t.val < 8 := lt8 t.isLt
  rw [show (dat0 V c).leavesExact 0 t = owns (c : Thread nD τ) (inBuf t) fullShare ((dat0 V c).after 0 t) from by
    unfold Dat.leavesExact; rw [in_live t], after0_0]
  by_cases h0 : t.val % 8 = 0
  · have h1 : ¬t.val % 8 = 7 := by omega
    have hz : t.val = 0 := by omega
    rw [Dat.leavesExact_idle (dat0 V c) 1 t (out_idle t (fun h => h1 ((isLast_iff t).mp h))) (out_noflush t (fun h => h1 ((isLast_iff t).mp h)))]
    rw [gramAt_first V c t h0 h1]
    unfold accFirstAt; (try dsimp only)
    rw [PhiG_castSucc V c t, PhiG_zero V c _ _ hz, PhiA0_eq]
    iintro ⟨⟨⟨HS0, Hoth⟩, Hg⟩, Ho, ⟨%d0, H0⟩, ⟨%d1, H1⟩⟩
    iapply ((runFirst c (grid0.coords t) _ _ _ _ _ _ ((isFirst_iff t).mpr h0) (fun h => h1 ((isLast_iff t).mp h)) (blk0 V c 0 t)).2.2 _ Set.univ _)
    isplitl [H0]; · iexact H0
    isplitl [H1]; · iexact H1
    isplitl [HS0]; · iexact HS0
    iintro ⟨H0, H1, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (accCover_first V c t _ _)
        iexact Hoth
      iexact Hg
    isplitl [Ho]; · iexact Ho
    isplitl [H0]; · iexact H0
    iexists _; iexact H1
  · have hz : t.val ≠ 0 := fun e => h0 (by rw [e])
    by_cases h1 : t.val % 8 = 7
    · rw [show (dat0 V c).leavesExact 1 t = owns (c : Thread nD τ) (outBuf t) fullShare ((dat0 V c).after 1 t) from by
        unfold Dat.leavesExact; rw [out_live t ((isLast_iff t).mpr h1)], after0_1]
      rw [gramAt_last V c t h0 h1]
      unfold outLastAt accLastAt; (try dsimp only)
      rw [PhiG_castSucc V c t, PhiG_pos V c _ _ hz]
      iintro ⟨⟨⟨HS0, Hoth⟩, Hg⟩, Ho, ⟨%d0, H0⟩, ⟨%d1, H1⟩⟩
      iapply ((runLast c (grid0.coords t) _ _ _ _ _ _ (fun h => h0 ((isFirst_iff t).mp h)) ((isLast_iff t).mpr h1) (blk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accCover_last V c t _ _ _)
          iexact Hoth
        iexact Hg
      isplitl [Ho]; · iexact Ho
      isplitl [H0]; · iexact H0
      unfold owns; iexists _; isplitr
      swap; · iexact H1
      ipureintro; exact View.read_writes_of_cover _ _ _ _ _ (outCover_last V c t _ _ _)
    · rw [Dat.leavesExact_idle (dat0 V c) 1 t (out_idle t (fun h => h1 ((isLast_iff t).mp h))) (out_noflush t (fun h => h1 ((isLast_iff t).mp h)))]
      rw [gramAt_middle V c t h0 h1]
      unfold accMiddleAt; (try dsimp only)
      rw [PhiG_castSucc V c t, PhiG_pos V c _ _ hz]
      iintro ⟨⟨⟨HS0, Hoth⟩, Hg⟩, Ho, ⟨%d0, H0⟩, ⟨%d1, H1⟩⟩
      iapply ((runMiddle c (grid0.coords t) _ _ _ _ _ _ (fun h => h0 ((isFirst_iff t).mp h)) (fun h => h1 ((isLast_iff t).mp h)) (blk0 V c 0 t) _).2.2 _ Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (accCover_middle V c t _ _ _)
          iexact Hoth
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiG V c 0 (Nat.zero_le _) from rfl, PhiG_zero V c 0 _ rfl]
  try exact Idealize.SL.BI.Entails.refl _

/-- After the last point the invariant gives that back: the sum's name is forgotten. -/
theorem hout0 (c : Dev nD) : (dat0 V c).Φ (Fin.last cfg0.N) ⊢ Pipeline.ΦA spec0 c := by
  rw [show (dat0 V c).Φ (Fin.last cfg0.N) = PhiG V c (Fin.last cfg0.N).val (Nat.le_of_lt_succ (Fin.last cfg0.N).isLt) from rfl,
    PhiG_pos V c _ _ (by rw [Fin.val_last]; have : cfg0.N = 8 := N_0; omega), PhiA0_eq]
  iintro ⟨⟨HS0, Hoth⟩, Hg⟩
  isplitl [HS0 Hoth]
  · isplitl [HS0]
    · iexists _; iexact HS0
    iexact Hoth
  iexact Hg

end Cert.KernelIdeal.Frm

end
-- ==== Proof.ScoresRegionIdeal.lean ====
/-
  Region 1: the per-row scores. Each grid point stages one block of 1024 rows of the two normalized arrays together with
  the whole Gram matrix and the column-sum row (both resident: fetched once, at the first point), and stores the
  block's 1024 scores. The body has one control path and keeps nothing between points, so after a point the output
  buffer is a fixed function of the four staged blocks.
-/
import proofs.«140489_j65704409694815_2_alg».proof.Proof.Gen.KernelIdeal.Launch
import proofs.«140489_j65704409694815_2_alg».proof.Proof.Gen.KernelIdeal.Skeleton
import proofs.«140489_j65704409694815_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Frm1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter, which the run instantiates
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds its block at every point, fetched there or not (a resident window's index never moves). -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: each buffer whole -/

abbrev rRows : Rect S1024x128 := Rect.unit (s := S1024x128) ![0, 0] S1024x128.size inb_S1024x128_S1024x128_0_0
abbrev rGram : Rect S128x128 := Rect.unit (s := S128x128) ![0, 0] S128x128.size inb_S128x128_S128x128_0_0
abbrev rSum : Rect S1x128 := Rect.unit (s := S1x128) ![0, 0] S1x128.size inb_S1x128_S1x128_0_0
abbrev rOut : Rect S1024x1 := Rect.unit (s := S1024x1) ![0, 0] S1024x1.size inb_S1024x1_S1024x1_0_0

/-- The output buffer after the body: the one store of the block's scores, a function of the four staged blocks. -/
def scoresOut (x0 x1 : Vec F S1024x128 .f32) (x2 : Vec F S128x128 .f32) (x3 : Vec F S1x128 .f32) : Vec F S1024x1 .f32 :=
  View.canon [⟨rOut, k1_pay1 (View.ld x0 rRows) (View.ld x1 rRows) (View.ld x2 rGram) (View.ld x3 rSum)⟩]

/-- The store covers the buffer. -/
theorem scoresCover (p0 : Vec F S1024x1 .f32) (y : S1024x1.Idx) :
    ∃ pc ∈ ([⟨rOut, p0⟩] : List (View.Piece (Elt F) S1024x1 .f32)), y ∈ pc.1.set :=
  View.cover_of_tiled [⟨rOut, p0⟩] S1024x1.size (by rfl) y

set_option maxHeartbeats 1000000 in
/-- The body on whole staging buffers, the inputs' at their contents and the output's at anything, runs to the
    continuation holding the inputs' as they were and the output's at `scoresOut` of them. -/
theorem sound_scores (c : Dev nD) (E : Set ℕ) (i : grid1.Coords) (arg1 : Memref sig .tc .vmem S1024x128 .f32) (harg1 : arg1.IsWhole) (arg2 : Memref sig .tc .vmem S1024x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1024x1 .f32) (harg5 : arg5.IsWhole)
    (x0 x1 : Vec F S1024x128 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (scoresOut x0 x1 x2 x3)) -∗ K ⟨⟩))
      ⊢ wp frame (wpE (defs₀ (F := F)) Variants.none c none) E (cc1__scores_kernel i arg1 harg1 arg2 harg2 arg3 harg3 arg4 harg4 arg5 harg5) K := by
  simp only [cc1__scores_kernel_eq_skeleton]; unfold cc1__scores_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (scoresCover _)

/-! ## The proof data -/

/-- Region 1's proof data on core `c`: the arrays as the region finds them; after point `t` each input's buffer at its block and
    the output's at `scoresOut` of the blocks; the plain invariant (the scoped rest and the generator register, untouched);
    nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => scoresOut (blk1 V c 0 t) (blk1 V c 1 t) (blk1 V c 2 t) (blk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = scoresOut (blk1 V c 0 t) (blk1 V c 1 t) (blk1 V c 2 t) (blk1 V c 3 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_scores c Set.univ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm1

end
-- ==== Proof.WholeRunIdeal.lean ====
/-
  The whole program: host operations, region 0 (the Gram matrix), region 1 (the scores), host operations. Between two
  items every unscoped buffer of the core is held at a named valuation; a region changes exactly one buffer — its
  result array — and the valuation after it is the one before it updated there with what the region's write-backs
  leave. Each region is entered by splitting its windows' arrays out of the held buffers and left by putting them back;
  the generator register and the (empty) dues of the core ride along unchanged.
-/
import proofs.«140489_j65704409694815_2_alg».proof.Proof.Gen.KernelIdeal.Regions
import proofs.«140489_j65704409694815_2_alg».proof.Proof.GramDataIdeal
import proofs.«140489_j65704409694815_2_alg».proof.Proof.ScoresRegionIdeal

-- membership in a rectangle of these extents recurses once per coordinate of the long axes
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the regions' boundaries -/

/-- Region 0 is entered from the contents after the host prefix, read at the TensorCore's references. -/
abbrev E5 : (c : Dev nD) → (b : Ref sig .tc) → Buf (Elt F) ((c : Thread nD τ).loc b) := fun c b => V5 m c b

/-- What region 0's write-backs leave in the Gram matrix's array. -/
def gramOut (c : Dev nD) : Buf (Elt F) ((c : Thread nD τ).loc main_v17) := (Frm.dat0 (E5 m) c).arrAt 1 cfg0.N

/-- After region 0: the entry contents with the Gram matrix's array at what the region left. -/
def W6 (c : Dev nD) : Valuation τ sig (Elt F) := Function.update (V5 m c) main_v17 (gramOut m c)
abbrev E6 : (c : Dev nD) → (b : Ref sig .tc) → Buf (Elt F) ((c : Thread nD τ).loc b) := fun c b => W6 m c b

/-- What region 1's write-backs leave in the scores' array. -/
def scoresArr (c : Dev nD) : Buf (Elt F) ((c : Thread nD τ).loc main_v18) := (Frm1.dat1 (E6 m) c).arrAt 4 cfg1.N

/-- The regions' results as the family the generated boundary valuations are written over. -/
def outs : Outs (F := F) := fun _ r c =>
  if h : r = main_v17 then h ▸ gramOut m c
  else if h' : r = main_v18 then h' ▸ scoresArr m c
  else m ((c : Thread nD τ).loc r)

theorem outs_gram (n : ℕ) (c : Dev nD) : outs m n main_v17 c = gramOut m c := by
  unfold outs; rw [dif_pos rfl]
theorem outs_scores (n : ℕ) (c : Dev nD) : outs m n main_v18 c = scoresArr m c := by
  unfold outs; rw [dif_neg (by decide), dif_pos rfl]

theorem V6_eq (c : Dev nD) : V6 m (outs m) c = W6 m c := by
  unfold W6; rw [← outs_gram m 6 c]

/-! ## The proof data family -/

/-- Each region's proof data at its entry contents: a literal match on the region's number. -/
def pdats : (p : Fin 2) → (c : Dev nD) → Dat τ (Elt F) Unit ℕ (UR sig nD τ) ℕ (cfgs p) c
  | ⟨0, _⟩ => fun c => Frm.dat0 (E5 m) c
  | ⟨1, _⟩ => fun c => Frm1.dat1 (E6 m) c

abbrev L : GSem nD τ sig → Finset Unit := fun _ => ∅
abbrev lv : GSem nD τ sig → Unit → ℕ := fun _ _ => 0
/-- What rides beside the buffers through every item: the generator register at some state and the core's dues, empty. -/
abbrev R (c : Dev nD) : sProp 𝕄 := iprop((∃ r, prngReg c r) ∗ ∃ W, owes (c : Thread nD τ) (0 : CellTallies nD τ sig Unit) W)

/-! ## Region 0's arrays at its exit -/

theorem hF0 (c : Dev nD) (w : Fin cfg0.W) :
    (Frm.dat0 (E5 m) c).arrAt w cfg0.N = (fun b : Ref sig .tc => V6 m (outs m) c b) (Pipeline.arrRef spec0 w) := by
  match w with
  | ⟨0, _⟩ =>
    exact (((Frm.dat0 (E5 m) c).arrAt_in 0 rfl _).trans (Frm.A_eq0 (E5 m) c 0)).trans (V6_of m (outs m) c main_v14 (by decide)).symm
  | ⟨1, _⟩ =>
    show _ = Function.update (V5 m c) main_v17 (outs m 6 main_v17 c) main_v17
    rw [Function.update_self, outs_gram]; rfl

theorem hrest0 (c : Dev nD) : ∀ b : Ref sig .tc, b ∉ Finset.univ.image (Pipeline.arrRef spec0) →
    (fun b : Ref sig .tc => V6 m (outs m) c b) b = E5 m c b := fun b hb =>
  V6_of m (outs m) c b (by
    intro hm; rw [List.mem_singleton] at hm; subst hm
    exact hb (Finset.mem_image.mpr ⟨1, Finset.mem_univ _, rfl⟩))

/-! ## Region 1's arrays at its exit -/

theorem E6_eq (c : Dev nD) (b : Ref sig .tc) : E6 m c b = V6 m (outs m) c b := (congrFun (V6_eq m c) _).symm

theorem hF1 (c : Dev nD) (w : Fin cfg1.W) :
    (Frm1.dat1 (E6 m) c).arrAt w cfg1.N = (fun b : Ref sig .tc => V7 m (outs m) c b) (Pipeline.arrRef spec1 w) := by
  match w with
  | ⟨0, _⟩ =>
    exact ((((Frm1.dat1 (E6 m) c).arrAt_in 0 rfl _).trans (Frm1.A_eq1 (E6 m) c 0)).trans (E6_eq m c main_v9)).trans (V7_of m (outs m) c main_v9 (by decide)).symm
  | ⟨1, _⟩ =>
    exact ((((Frm1.dat1 (E6 m) c).arrAt_in 1 rfl _).trans (Frm1.A_eq1 (E6 m) c 1)).trans (E6_eq m c main_v14)).trans (V7_of m (outs m) c main_v14 (by decide)).symm
  | ⟨2, _⟩ =>
    exact ((((Frm1.dat1 (E6 m) c).arrAt_in 2 rfl _).trans (Frm1.A_eq1 (E6 m) c 2)).trans (E6_eq m c main_v17)).trans (V7_of m (outs m) c main_v17 (by decide)).symm
  | ⟨3, _⟩ =>
    exact ((((Frm1.dat1 (E6 m) c).arrAt_in 3 rfl _).trans (Frm1.A_eq1 (E6 m) c 3)).trans (E6_eq m c main_v16)).trans (V7_of m (outs m) c main_v16 (by decide)).symm
  | ⟨4, _⟩ =>
    show _ = Function.update (V6 m (outs m) c) main_v18 (outs m 7 main_v18 c) main_v18
    rw [Function.update_self, outs_scores]; rfl

theorem hrest1 (c : Dev nD) : ∀ b : Ref sig .tc, b ∉ Finset.univ.image (Pipeline.arrRef spec1) →
    (fun b : Ref sig .tc => V7 m (outs m) c b) b = (fun b : Ref sig .tc => V6 m (outs m) c b) b := fun b hb =>
  V7_of m (outs m) c b (by
    intro hm; rw [List.mem_singleton] at hm; subst hm
    exact hb (Finset.mem_image.mpr ⟨4, Finset.mem_univ _, rfl⟩))

/-! ## The regions as segments -/

set_option backward.isDefEq.respectTransparency.types false in
/-- REGION 0 over the thread state: entered from every unscoped buffer at the contents after the host prefix, left with
    the Gram matrix's array at what the region wrote. The scratch buffer enters the invariant among the scoped rest and
    comes back among it. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Frm.body_obligation0 (E5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Frm.hin0 (E5 m) c)
    unfold Pipeline.ΦA
    iintro ⟨Hp, -, Hr⟩
    isplitl [Hr]; · iexact Hr
    iexact Hp
  hout c := by
    refine BIBase.Entails.trans (Frm.hout0 (E5 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (fun b : Ref sig .tc => V6 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from the contents region 0 left, left with the scores' array at what the region wrote. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Frm1.body_obligation1 (E6 m) c).loose
  hwaits := Pipeline.hwaits_of_owed_zero _ _ _ _ L lv 1 fun _ _ => rfl
  pre c := iprop(StableHlo.held (c : Thread nD τ) (Pipeline.ucRefs τ sig) (V6 m (outs m) c) ∗ R c)
  post c := iprop(StableHlo.held (c : Thread nD τ) (Pipeline.ucRefs τ sig) (V7 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b : Ref sig .tc => V6 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b : Ref sig .tc => V6 m (outs m) c b) fun w => E6_eq m c _
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b : Ref sig .tc => V6 m (outs m) c b) (fun b : Ref sig .tc => V7 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- Every weakly fair execution of the program terminates, nothing faulting, with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond m (EP := emb₁) (ι := ()) (𝒱₀ := Variants.none) (L := L) (lv := lv) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

end Cert.KernelIdeal.Whole

end
-- ==== Proof.WholeValueIdeal.lean ====
/-
  The idealized kernel's run with its RESULT named: the same segments as the frame, read at the end not only at the
  three argument arrays but also at the result buffer, which holds the last boundary valuation's contents there — the
  host suffix applied to the contents the two regions left.
-/
import proofs.«140489_j65704409694815_2_alg».proof.Proof.WholeRunIdeal

-- membership in a rectangle of these extents recurses once per coordinate of the long axes
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last valuation's contents and
    each argument array as launched. -/
theorem run_all : θ_run defs (onTc (τ := τ) (main (F := F))) ⟨m, fun _ => 0, ρ⟩ (fun r => ∀ c : Dev nD,
      r.2.mem ((c.tc : Thread nD τ).loc main_v43) = V13 m (outs m) c main_v43
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) adm (pdats m) () cellOf_inj emb₁ defs₀ Variants.none L lv m ρ main
    (segs m (outs m) Variants.none L lv (fun _ c => R c) () (pdats m) (reg0 m) (reg1 m))
    (fun c Q => by
      rewrite [main_chain c, Pipeline.Seg.run_eq_chain,
        show (segs m (outs m) Variants.none L lv (fun _ c => R c) () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V13 m (outs m) c))
    (hch := fun c => ⟨.rfl, .rfl, .rfl, .rfl, .rfl, .rfl, .rfl, .rfl, .rfl, .rfl, .rfl, .rfl, .rfl,
      sep_mono .rfl (by iintro ⟨-, HO⟩; iexact HO)⟩)
    (hinit := ?_)
    (QY := fun c s => s.mem ((c.tc : Thread nD τ).loc main_v43) = V13 m (outs m) c main_v43
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h => h)
  · -- the launch: the unscoped buffers are held at the launch contents; the rest rides along on every core at once
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result and each argument read off the last valuation
    unfold StableHlo.held
    iintro ⟨Hh, HSI⟩
    ihave Hr := (pointsTo_read_all (Pipeline.ucRefs τ sig) (fun b => ((c : Thread nD τ).1, b)) (V13 m (outs m) c) s') $$ [Hh HSI]
    · isplitl [Hh] <;> iassumption
    icases Hr with ⟨%h, HSI⟩
    imodintro
    isplitr
    · ipureintro
      exact ⟨h (Proc.devRef .tc main_v43) (Finset.mem_filter.mpr ⟨StableHlo.devRef_mem_tcRefs main_v43, by decide⟩),
        (h (Proc.devRef .tc main_arg0) (Finset.mem_filter.mpr ⟨StableHlo.devRef_mem_tcRefs main_arg0, by decide⟩)).trans (V13_main_arg0 m (outs m) c),
        (h (Proc.devRef .tc main_arg1) (Finset.mem_filter.mpr ⟨StableHlo.devRef_mem_tcRefs main_arg1, by decide⟩)).trans (V13_main_arg1 m (outs m) c),
        (h (Proc.devRef .tc main_arg2) (Finset.mem_filter.mpr ⟨StableHlo.devRef_mem_tcRefs main_arg2, by decide⟩)).trans (V13_main_arg2 m (outs m) c)⟩
    · iexact HSI

end Cert.KernelIdeal.Whole

end
-- ==== Proof.ScoresValueIdeal.lean ====
/-
  Region 1's value. The output buffer after a point is the body's one arithmetic term of the four staged blocks. Read at the
  ideal values at row r of the block, with c and x the block's rows of the two normalized arrays, M the Gram matrix and S the
  column sums, it is
      (c·S − (c M)·x) − (c·x)(1 − x·x),
  every dot product a sum over the 128 lanes.
-/
import proofs.«140489_j65704409694815_2_alg».proof.Proof.ScoresRegionIdeal
import Idealize.ShloMosaic.Lib.Pipeline.Value
import Idealize.ShloMosaic.Lib.ValueIdx
import Idealize.ShloMosaic.PureOps.Ideal.Laws

-- membership in a rectangle of these extents recurses once per coordinate of the long axes
set_option maxRecDepth 16384

noncomputable section

namespace Cert.KernelIdeal.Frm1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz : (![0, 0] : Fin 2 → Nat) = fun _ => 0 := funext fun a => by fin_cases a <;> rfl

/-- The one store's payload is the body's term of the whole blocks. -/
theorem scoresOut_eq (x0 x1 : Vec F S1024x128 .f32) (x2 : Vec F S128x128 .f32) (x3 : Vec F S1x128 .f32) :
    scoresOut x0 x1 x2 x3 = k1_pay1 x0 x1 x2 x3 := by
  unfold scoresOut
  rw [View.canon_unit_zero hz]
  simp only [View.ld_unit_zero (S := S1024x128) hz, View.ld_unit_zero (S := S128x128) hz, View.ld_unit_zero (S := S1x128) hz]

/-! ## The operations of the term, each at an index -/

theorem lhs1_row (i : S1024x128.Idx) (q : dot_S1024x128_S128x128_S1024x128_1_0_0_1_n_n.contr.Idx) : (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem rhs1_col (i : S1024x128.Idx) (q : dot_S1024x128_S128x128_S1024x128_1_0_0_1_n_n.contr.Idx) : (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- A block of rows times the Gram matrix, into a zero accumulator, at (r, l): row r against column l. -/
theorem rowsTimesGram_apply (lhs : FVec Ideal S1024x128 .bf16) (rhs : FVec Ideal S128x128 .bf16) (r : Fin 1024) (l : Fin 128) :
    matmul dot_S1024x128_S128x128_S1024x128_1_0_0_1_n_n none lhs rhs (constant S1024x128 .f32 0x00000000#32) (ix2 r l)
      = ∑ k : Fin 128, lhs (ix2 r k) * rhs (ix2 k l) := by
  show FloatOps.matmul dot_S1024x128_S128x128_S1024x128_1_0_0_1_n_n none lhs rhs (constant S1024x128 .f32 0x00000000#32) (ix2 r l) = _
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 r l) ((contrEquiv1 dot_S1024x128_S128x128_S1024x128_1_0_0_1_n_n 128 rfl rfl).symm k) = ix2 r k := funext fun d => Fin.ext (by
    match d with
    | ⟨0, _⟩ => exact lhs1_row _ _
    | ⟨1, _⟩ => exact (dot_S1024x128_S128x128_S1024x128_1_0_0_1_n_n.lhsIdx_val_of_single rfl _ _).trans hk)
  have er : dot_S1024x128_S128x128_S1024x128_1_0_0_1_n_n.rhsIdx (ix2 r l) ((contrEquiv1 dot_S1024x128_S128x128_S1024x128_1_0_0_1_n_n 128 rfl rfl).symm k) = ix2 k l := funext fun d => Fin.ext (by
    match d with
    | ⟨0, _⟩ => exact (dot_S1024x128_S128x128_S1024x128_1_0_0_1_n_n.rhsIdx_val_of_single rfl _ _).trans hk
    | ⟨1, _⟩ => exact rhs1_col _ _)
  rw [el, er]

/-- A sum over the lanes of a [1024, 128] block, at row r. -/
theorem laneSum_apply (src : FVec Ideal S1024x128 .f32) (hφ : FKind.Formats .f32)
    (hacc : (0x00000000#32 : BitVec 32) = FKind.add.neutral .f32 hφ) (r : Fin 1024) :
    multiReduction .add [1] S1024 src 0x00000000#32 reduces_S1024x128_S1024 hφ hacc (ix1 r) = ∑ k : Fin 128, src (ix2 r k) := by
  refine (Ideal.multiReduction_add_single src 0x00000000#32 reduces_S1024x128_S1024 hφ hacc (ix1 r)).trans ?_
  refine Finset.sum_congr rfl fun k _ => congrArg src (funext fun d => Fin.ext ?_)
  match d with
  | ⟨0, _⟩ => rfl
  | ⟨1, _⟩ => rfl

/-- The keepdims cast [1024] → [1024, 1]. -/
theorem colCast_apply (v : FVec Ideal S1024 .f32) (r : Fin 1024) (z : Fin 1) :
    shapeCast S1024x1 v shapeCasts_S1024_S1024x1 (ix2 r z) = v (ix1 r) :=
  shapeCast_apply v shapeCasts_S1024_S1024x1 (ix2 r z) (ix1 r) (by
    rw [Shape.rowMajor_val_one, Shape.rowMajor_val_two]
    show r.val = r.val * 1 + z.val
    have := z.isLt; omega)

/-- The column-sum row broadcast down the block's rows. -/
theorem bcastRow_apply (v : FVec Ideal S1x128 .f32) (r : Fin 1024) (k : Fin 128) :
    broadcastTo S1024x128 v broadcasts_S1x128_S1024x128 (ix2 r k) = v (ix2 0 k) :=
  broadcastTo_apply v broadcasts_S1x128_S1024x128 (ix2 r k) (ix2 0 k) (fun a => by
    match a with
    | ⟨0, _⟩ => rfl
    | ⟨1, _⟩ => rfl)

/-- THE TERM at row r of the block. -/
theorem scoresPay_apply (c0 x0 : Vec Ideal S1024x128 .f32) (M : Vec Ideal S128x128 .f32) (S : Vec Ideal S1x128 .f32) (r : Fin 1024) (z : Fin 1) :
    k1_pay1 (F := Ideal) c0 x0 M S (ix2 r z)
      = ((∑ k : Fin 128, c0 (ix2 r k) * S (ix2 0 k)) - ∑ l : Fin 128, (∑ k : Fin 128, c0 (ix2 r k) * M (ix2 k l)) * x0 (ix2 r l))
        - (∑ k : Fin 128, c0 (ix2 r k) * x0 (ix2 r k)) * (Ideal.ofBits .f32 0x3F800000#32 - ∑ k : Fin 128, x0 (ix2 r k) * x0 (ix2 r k)) := by
  unfold k1_pay1
  simp only [shapeCast_self]
  simp only [subf_apply, mulf_apply, colCast_apply, broadcast_apply]
  refine (congrArg₂ (fun u v : EReal => u - v)
    (congrArg₂ (fun u v : EReal => u - v) (laneSum_apply _ _ _ r) (laneSum_apply _ _ _ r))
    (congrArg₂ (fun u v : EReal => u * v) (laneSum_apply _ _ _ r)
      (congrArg (fun v : EReal => FloatOps.ofBits (F := Ideal) .f32 0x3F800000#32 - v) (laneSum_apply _ _ _ r)))).trans ?_
  simp only [mulf_apply, bcastRow_apply, rowsTimesGram_apply, truncf_apply]
  rfl

end Cert.KernelIdeal.Frm1

end
-- ==== Proof.GramValueIdeal.lean ====
/-
  Region 0's value. What each situation leaves in the scratch (and, at the last point, in the output buffer) is the body's
  one arithmetic term: the block's product Xᵀ X added to what the scratch held (zero, at the first point). Read at the
  ideal values and at an entry (a, b), that term is  acc[a, b] + Σ_r X[r, a] · X[r, b]  over the block's 1024 rows.
-/
import proofs.«140489_j65704409694815_2_alg».proof.Proof.GramDataIdeal
import Idealize.ShloMosaic.Lib.Pipeline.Value
import Idealize.ShloMosaic.Lib.ValueIdx
import Idealize.ShloMosaic.PureOps.Ideal.Laws

-- membership in a rectangle of these extents recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

theorem hz : (![0, 0] : Fin 2 → Nat) = fun _ => 0 := funext fun a => by fin_cases a <;> rfl

/-! ## What the found pieces read back as -/

/-- First point: the block's product added to the zeroed scratch. -/
theorem accFirstAt_eq (c : Dev nD) (t : Fin cfg0.N) (h0 : isFirst (grid0.coords t)) (h1 : ¬isLast (grid0.coords t)) :
    accFirstAt V c t h0 h1 = k0_pay2 (blk0 V c 0 t) (k0_pay1 (F := F)) := by
  unfold accFirstAt
  rw [View.read_writes_eq_canon _ _ _ (accCover_first V c t h0 h1)]
  unfold runFirst; dsimp only; sl_unfold_words
  rw [View.canon_cons_unit_zero hz]
  simp only [View.readAt_eq_ld, (inBuf_whole t).read_unread, View.ld_unit_zero (S := S1024x128) hz, View.readCov_unit_zero (S := S128x128) _ hz]

/-- Middle point: the block's product added to the sum so far. -/
theorem accMiddleAt_eq (c : Dev nD) (t : Fin cfg0.N) (h0 : ¬isFirst (grid0.coords t)) (h1 : ¬isLast (grid0.coords t)) (xs : Vec F S128x128 .f32) :
    accMiddleAt V c t h0 h1 xs = k0_pay2 (blk0 V c 0 t) xs := by
  unfold accMiddleAt
  rw [View.read_writes_eq_canon _ _ _ (accCover_middle V c t h0 h1 xs)]
  unfold runMiddle; dsimp only; sl_unfold_words
  rw [View.canon_cons_unit_zero hz]
  simp only [View.readAt_eq_ld, (inBuf_whole t).read_unread, View.ld_unit_zero (S := S1024x128) hz, View.ld_unit_zero (S := S128x128) hz]
  exact congrArg (k0_pay2 (blk0 V c 0 t)) ((Memref.isWhole_whole cc0_scratch0).read_unread xs)

/-- Last point: the same in the scratch, -/
theorem accLastAt_eq (c : Dev nD) (t : Fin cfg0.N) (h0 : ¬isFirst (grid0.coords t)) (h1 : isLast (grid0.coords t)) (xs : Vec F S128x128 .f32) :
    accLastAt V c t h0 h1 xs = k0_pay2 (blk0 V c 0 t) xs := by
  unfold accLastAt
  rw [View.read_writes_eq_canon _ _ _ (accCover_last V c t h0 h1 xs)]
  unfold runLast; dsimp only; sl_unfold_words
  rw [View.canon_cons_unit_zero hz]
  simp only [View.readAt_eq_ld, (inBuf_whole t).read_unread, View.ld_unit_zero (S := S1024x128) hz, View.ld_unit_zero (S := S128x128) hz]
  exact congrArg (k0_pay2 (blk0 V c 0 t)) ((Memref.isWhole_whole cc0_scratch0).read_unread xs)

/-- and its copy in the output buffer. -/
theorem outLastAt_eq (c : Dev nD) (t : Fin cfg0.N) (h0 : ¬isFirst (grid0.coords t)) (h1 : isLast (grid0.coords t)) (xs : Vec F S128x128 .f32) :
    outLastAt V c t h0 h1 xs = k0_pay2 (blk0 V c 0 t) xs := by
  unfold outLastAt
  rw [View.read_writes_eq_canon _ _ _ (outCover_last V c t h0 h1 xs)]
  unfold runLast; dsimp only; sl_unfold_words
  rw [View.canon_cons_unit_zero hz]
  simp only [View.readAt_eq_ld, (inBuf_whole t).read_unread, View.ld_unit_zero (S := S1024x128) hz, View.ld_unit_zero (S := S128x128) hz,
    View.readCov_unit_zero (S := S128x128) _ hz]
  exact congrArg (k0_pay2 (blk0 V c 0 t)) ((Memref.isWhole_whole cc0_scratch0).read_unread xs)

/-! ## The block product at an entry, at the ideal values -/

theorem lhs0_row (i : S128x128.Idx) (q : dot_S128x1024_S1024x128_S128x128_1_0_0_1_n_n.contr.Idx) : (dot_S128x1024_S1024x128_S128x128_1_0_0_1_n_n.lhsIdx i q 0).val = (i 0).val := by
  unfold DotDims.lhsIdx
  rw [dif_neg (show ¬(0 : Fin S128x1024.rank) ∈ dot_S128x1024_S1024x128_S128x128_1_0_0_1_n_n.lhsBatch by decide), dif_pos (show (0 : Fin S128x1024.rank) ∈ dot_S128x1024_S1024x128_S128x128_1_0_0_1_n_n.lhsNonContracting by decide)]
  rfl
theorem rhs0_col (i : S128x128.Idx) (q : dot_S128x1024_S1024x128_S128x128_1_0_0_1_n_n.contr.Idx) : (dot_S128x1024_S1024x128_S128x128_1_0_0_1_n_n.rhsIdx i q 1).val = (i 1).val := by
  unfold DotDims.rhsIdx
  rw [dif_neg (show ¬(1 : Fin S1024x128.rank) ∈ dot_S128x1024_S1024x128_S128x128_1_0_0_1_n_n.rhsBatch by decide), dif_pos (show (1 : Fin S1024x128.rank) ∈ dot_S128x1024_S1024x128_S128x128_1_0_0_1_n_n.rhsNonContracting by decide)]
  rfl

/-- The product of a [128, 1024] by a [1024, 128] operand into a zero accumulator, at entry (a, b): the sum over the 1024 rows. -/
theorem blockProduct_apply (lhs : FVec Ideal S128x1024 .bf16) (rhs : FVec Ideal S1024x128 .bf16) (a b : Fin 128) :
    FloatOps.matmul dot_S128x1024_S1024x128_S128x128_1_0_0_1_n_n none lhs rhs (constant S128x128 .f32 0x00000000#32) (ix2 a b)
      = ∑ r : Fin 1024, lhs (ix2 a r) * rhs (ix2 r b) := by
  rw [Ideal.matmul_constant_zero_apply, ← Equiv.sum_comp (contrEquiv1 dot_S128x1024_S1024x128_S128x128_1_0_0_1_n_n 1024 rfl rfl).symm]
  refine Finset.sum_congr rfl fun k _ => ?_
  have hk := contrEquiv1_symm_val dot_S128x1024_S1024x128_S128x128_1_0_0_1_n_n 1024 rfl rfl k
  have el : dot_S128x1024_S1024x128_S128x128_1_0_0_1_n_n.lhsIdx (ix2 a b) ((contrEquiv1 dot_S128x1024_S1024x128_S128x128_1_0_0_1_n_n 1024 rfl rfl).symm k) = ix2 a k := funext fun d => Fin.ext (by
    match d with
    | ⟨0, _⟩ => exact lhs0_row _ _
    | ⟨1, _⟩ => exact (dot_S128x1024_S1024x128_S128x128_1_0_0_1_n_n.lhsIdx_val_of_single rfl _ _).trans hk)
  have er : dot_S128x1024_S1024x128_S128x128_1_0_0_1_n_n.rhsIdx (ix2 a b) ((contrEquiv1 dot_S128x1024_S1024x128_S128x128_1_0_0_1_n_n 1024 rfl rfl).symm k) = ix2 k b := funext fun d => Fin.ext (by
    match d with
    | ⟨0, _⟩ => exact (dot_S128x1024_S1024x128_S128x128_1_0_0_1_n_n.rhsIdx_val_of_single rfl _ _).trans hk
    | ⟨1, _⟩ => exact rhs0_col _ _)
  rw [el, er]

/-- The body's term at entry (a, b): what the scratch held there plus the block's column a against its column b. -/
theorem gramPay_apply (x : Vec Ideal S1024x128 .f32) (acc : Vec Ideal S128x128 .f32) (a b : Fin 128) :
    k0_pay2 (F := Ideal) x acc (ix2 a b) = acc (ix2 a b) + ∑ r : Fin 1024, x (ix2 r a) * x (ix2 r b) := by
  unfold k0_pay2
  simp only [shapeCast_self]
  rw [addf_apply]
  refine congrArg (acc (ix2 a b) + ·) ?_
  refine (blockProduct_apply _ _ a b).trans ?_
  refine Finset.sum_congr rfl fun r _ => ?_
  rw [transpose_apply [1, 0] _ transposes_S1024x128_p1_0_S128x1024 (ix2 a r) (ix2 r a) (fun d => match d with
    | ⟨0, _⟩ => rfl
    | ⟨1, _⟩ => rfl)]
  rfl

end Cert.KernelIdeal.Frm

end
-- ==== Proof.GramArrayIdeal.lean ====
/-
  Region 0's result array. Point t stages rows 1024 t … 1024 t + 1023 of the normalized documents X; the scratch after
  point n holds Σ_{s ≤ n} (block s)ᵀ (block s); only the last point stores into the output window, whose one block is the
  whole 128 × 128 array and which is written back once, after that point. So the array the region leaves is
  M[a, b] = Σ_{s < 8} Σ_{r < 1024} X[1024 s + r, a] · X[1024 s + r, b].
-/
import proofs.«140489_j65704409694815_2_alg».proof.Proof.GramValueIdeal

-- membership in a rectangle of these extents recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- The row window's block index is the grid point; the output window has one block. -/
theorem rows_index : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem out_index : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Entry k of row j of a [8192, 128] array (zero past the last row: never read there). -/
def rowAt (X : S8192x128.Idx → EReal) (j : ℕ) (k : Fin 128) : EReal := if h : j < 8192 then X (ix2 ⟨j, h⟩ k) else 0

/-- Point t's block is rows 1024 t … of the array. -/
theorem blk0_rows (c : Dev nD) (t : Fin cfg0.N) (r : Fin 1024) (k : Fin 128) :
    blk0 V c 0 t (ix2 r k) = rowAt (V c main_v14) (1024 * t.val + r.val) k := by
  have hlt : 1024 * t.val + r.val < 8192 := by have := lt8 t.isLt; omega
  unfold rowAt; rw [dif_pos hlt]
  show V c main_v14 (((cfg0.win 0).blk t).view.emb (ix2 r k)) = _
  refine congrArg (V c main_v14) (funext fun a => Fin.ext ?_)
  obtain ⟨e0, e1⟩ := rows_index t
  match a with
  | ⟨0, _⟩ => show win0_0.index t (0 : Fin 2) * 1024 + 1 * r.val = 1024 * t.val + r.val; omega
  | ⟨1, _⟩ => show win0_0.index t (1 : Fin 2) * 128 + 1 * k.val = k.val; omega

/-- Block s's contribution to entry (a, b) of the Gram matrix. -/
def blockTerm (X : S8192x128.Idx → EReal) (s : ℕ) (a b : Fin 128) : EReal :=
  ∑ r : Fin 1024, rowAt X (1024 * s + r.val) a * rowAt X (1024 * s + r.val) b

/-- The zero the scratch is reset to. -/
theorem pay1_zero (j : S128x128.Idx) : k0_pay1 (F := Ideal) j = 0 := by
  unfold k0_pay1; simp only [shapeCast_self]
  show Ideal.ofBits .f32 0x00000000#32 = 0
  exact Ideal.ofBits_zero_f32

/-- One point's step at an entry. -/
theorem step_apply (c : Dev nD) (t : Fin cfg0.N) (acc : Vec Ideal S128x128 .f32) (a b : Fin 128) :
    k0_pay2 (F := Ideal) (blk0 V c 0 t) acc (ix2 a b) = acc (ix2 a b) + blockTerm (V c main_v14) t.val a b := by
  refine (gramPay_apply (blk0 V c 0 t) acc a b).trans ?_
  refine congrArg (acc (ix2 a b) + ·) (Finset.sum_congr rfl fun r _ => ?_)
  rw [blk0_rows, blk0_rows]

/-- THE ACCUMULATION: the scratch after point n holds the blocks' contributions up to n. -/
theorem gramAt_apply (c : Dev nD) (a b : Fin 128) : ∀ (n : ℕ) (hn : n < cfg0.N),
    (gramAt V c n hn).2 (ix2 a b) = ∑ s ∈ Finset.range (n + 1), blockTerm (V c main_v14) s a b
  | 0, hn => by
    have h := congrArg Prod.snd (gramAt_first V c ⟨0, hn⟩ (Nat.zero_mod _) (by show ¬(0 % 8 = 7); omega))
    rw [show (gramAt V c 0 hn).2 = _ from h]; dsimp only
    rw [accFirstAt_eq, step_apply, pay1_zero, zero_add, Finset.sum_range_one]
  | n + 1, hn => by
    have hN := lt8 hn
    have h0 : ¬(n + 1) % 8 = 0 := by omega
    rw [Finset.sum_range_succ, ← gramAt_apply c a b n (Nat.lt_of_succ_lt hn)]
    by_cases h1 : (n + 1) % 8 = 7
    · have h := congrArg Prod.snd (gramAt_last V c ⟨n + 1, hn⟩ h0 h1)
      rw [show (gramAt V c (n + 1) hn).2 = _ from h]; dsimp only
      rw [accLastAt_eq]
      exact step_apply V c ⟨n + 1, hn⟩ _ a b
    · have h := congrArg Prod.snd (gramAt_middle V c ⟨n + 1, hn⟩ h0 h1)
      rw [show (gramAt V c (n + 1) hn).2 = _ from h]; dsimp only
      rw [accMiddleAt_eq]
      exact step_apply V c ⟨n + 1, hn⟩ _ a b

/-- The Gram matrix of the rows, block by block. -/
def gramTotal (X : S8192x128.Idx → EReal) : S128x128.Idx → EReal := fun i =>
  ∑ s ∈ Finset.range 8, blockTerm X s ⟨(i 0).val, (i 0).isLt⟩ ⟨(i 1).val, (i 1).isLt⟩

/-- The output window's one block is the whole array. -/
theorem out_emb (t : Fin cfg0.N) (a b : Fin 128) : ((cfg0.win 1).blk t).view.emb (ix2 a b) = ix2 a b := by
  funext d; apply Fin.ext
  obtain ⟨e0, e1⟩ := out_index t
  match d with
  | ⟨0, _⟩ => show win0_1.index t (0 : Fin 2) * 128 + 1 * a.val = a.val; omega
  | ⟨1, _⟩ => show win0_1.index t (1 : Fin 2) * 128 + 1 * b.val = b.val; omega

/-- What the last point writes back is the Gram matrix read through the block. -/
theorem gram_flushed (c : Dev nD) (t : Fin cfg0.N) (hf : (cfg0.win 1).flush t = true) :
    (dat0 V c).flushed 1 t = ((cfg0.win 1).blk t).view.read (Elt Ideal) (gramTotal (V c main_v14)) := by
  have h7 : t.val % 8 = 7 := (flush0_1 t).mp hf
  have hN := lt8 t.isLt
  have h0 : ¬t.val % 8 = 0 := by omega
  show (cfg0.win 1).cut (grid0.coords t) ((dat0 V c).after 1 t) = _
  rw [after0_1]
  have h := congrArg Prod.fst (gramAt_last V c t h0 h7)
  rw [show (gramAt V c t.val t.isLt).1 = _ from h]; dsimp only
  rw [outLastAt_eq]
  funext y
  obtain ⟨a, b, rfl⟩ : ∃ (a b : Fin 128), y = ix2 a b := ⟨⟨(y 0).val, (y 0).isLt⟩, ⟨(y 1).val, (y 1).isLt⟩, eq_ix2 y⟩
  show k0_pay2 (F := Ideal) (blk0 V c 0 t) _ (ix2 a b) = gramTotal (V c main_v14) (((cfg0.win 1).blk t).view.emb (ix2 a b))
  rw [out_emb, step_apply, gramAt_apply]
  unfold gramTotal
  have ht : t.val = 7 := by omega
  rw [show t.val - 1 + 1 = 7 by omega, ht, ← Finset.sum_range_succ]

/-- An index of the array is in point t's block iff each coordinate is in the block's range on its axis. -/
theorem gram_mem_blk (t : Fin cfg0.N) (i : S128x128.Idx) :
    i ∈ ((cfg0.win 1).blk t).view.set ↔ ∀ a : Fin 2, win0_1.index t a * S128x128.size a ≤ (i a).val ∧ (i a).val < win0_1.index t a * S128x128.size a + S128x128.size a := by
  show i ∈ ((View.whole main_v17).slice (win0_1.rect t)).set ↔ _
  rw [View.set_slice_whole, Rect.mem_set_unit]
  exact Iff.rfl

/-- THE ARRAY region 0 leaves: the Gram matrix of the rows of X. -/
theorem gram_final (c : Dev nD) : (dat0 V c).arrAt 1 cfg0.N = gramTotal (V c main_v14) :=
  (dat0 V c).arrAt_eq_of_cover 1 (gramTotal (V c main_v14)) (fun t hf => gram_flushed V c t hf) (fun i => by
    refine ⟨⟨7, by rw [show cfg0.N = 8 from N_0]; decide⟩, (flush0_1 _).mpr rfl, ?_⟩
    rw [gram_mem_blk]
    obtain ⟨e0, e1⟩ := out_index ⟨7, by rw [show cfg0.N = 8 from N_0]; decide⟩
    intro a
    match a with
    | ⟨0, _⟩ =>
      show win0_1.index _ (0 : Fin 2) * 128 ≤ (i 0).val ∧ (i 0).val < win0_1.index _ (0 : Fin 2) * 128 + 128
      have hi : (i 0).val < 128 := (i 0).isLt; omega
    | ⟨1, _⟩ =>
      show win0_1.index _ (1 : Fin 2) * 128 ≤ (i 1).val ∧ (i 1).val < win0_1.index _ (1 : Fin 2) * 128 + 128
      have hi : (i 1).val < 128 := (i 1).isLt; omega)

end Cert.KernelIdeal.Frm

end
-- ==== Proof.ScoresArrayIdeal.lean ====
/-
  Region 1's result array. Point t stages rows 1024 t … 1024 t + 1023 of the combined vectors C and of the documents X, the whole
  Gram matrix M and the column-sum row S, and writes back the block's 1024 scores to rows 1024 t … of the [8192, 1] result.
  So the array the region leaves holds, at row j, the score of row j:  (c_j·S − (c_j M)·x_j) − (c_j·x_j)(1 − x_j·x_j).
-/
import proofs.«140489_j65704409694815_2_alg».proof.Proof.ScoresValueIdeal
import proofs.«140489_j65704409694815_2_alg».proof.Proof.GramArrayIdeal

-- membership in a rectangle of these extents recurses once per coordinate of the long axes
set_option maxRecDepth 16384

noncomputable section

namespace Cert.KernelIdeal.Frm1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Cert.KernelIdeal.Frm (rowAt lt8)

variable (V : (c : Dev nD) → (b : Ref sig .tc) → Buf (Elt Ideal) ((c : Thread nD τ).loc b))

theorem lt8' {n : ℕ} (hn : n < cfg1.N) : n < 8 := lt_of_lt_of_eq hn (show cfg1.N = 8 from N_1)

/-- The row windows' and the output's block index is the grid point; the two resident windows have one block. -/
theorem win_index : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = t.val ∧ win1_4.index t (1 : Fin 2) = 0) :=
  (by decide +kernel : ∀ t : Fin grid1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = t.val ∧ win1_4.index t (1 : Fin 2) = 0))

/-- Point t's blocks: rows 1024 t … of C and of X, -/
theorem blk1_comb (c : Dev nD) (t : Fin cfg1.N) (r : Fin 1024) (k : Fin 128) :
    blk1 V c 0 t (ix2 r k) = rowAt (V c main_v9) (1024 * t.val + r.val) k := by
  have hlt : 1024 * t.val + r.val < 8192 := by have := lt8' t.isLt; omega
  unfold rowAt; rw [dif_pos hlt]
  show V c main_v9 (((cfg1.win 0).blk t).view.emb (ix2 r k)) = _
  refine congrArg (V c main_v9) (funext fun a => Fin.ext ?_)
  obtain ⟨⟨e0, e1⟩, -⟩ := win_index t
  match a with
  | ⟨0, _⟩ => show win1_0.index t (0 : Fin 2) * 1024 + 1 * r.val = 1024 * t.val + r.val; omega
  | ⟨1, _⟩ => show win1_0.index t (1 : Fin 2) * 128 + 1 * k.val = k.val; omega
theorem blk1_docs (c : Dev nD) (t : Fin cfg1.N) (r : Fin 1024) (k : Fin 128) :
    blk1 V c 1 t (ix2 r k) = rowAt (V c main_v14) (1024 * t.val + r.val) k := by
  have hlt : 1024 * t.val + r.val < 8192 := by have := lt8' t.isLt; omega
  unfold rowAt; rw [dif_pos hlt]
  show V c main_v14 (((cfg1.win 1).blk t).view.emb (ix2 r k)) = _
  refine congrArg (V c main_v14) (funext fun a => Fin.ext ?_)
  obtain ⟨-, ⟨e0, e1⟩, -⟩ := win_index t
  match a with
  | ⟨0, _⟩ => show win1_1.index t (0 : Fin 2) * 1024 + 1 * r.val = 1024 * t.val + r.val; omega
  | ⟨1, _⟩ => show win1_1.index t (1 : Fin 2) * 128 + 1 * k.val = k.val; omega
/-- the whole Gram matrix, -/
theorem blk1_gram (c : Dev nD) (t : Fin cfg1.N) (k l : Fin 128) :
    blk1 V c 2 t (ix2 k l) = V c main_v17 (ix2 k l) := by
  show V c main_v17 (((cfg1.win 2).blk t).view.emb (ix2 k l)) = _
  refine congrArg (V c main_v17) (funext fun a => Fin.ext ?_)
  obtain ⟨-, -, ⟨e0, e1⟩, -⟩ := win_index t
  match a with
  | ⟨0, _⟩ => show win1_2.index t (0 : Fin 2) * 128 + 1 * k.val = k.val; omega
  | ⟨1, _⟩ => show win1_2.index t (1 : Fin 2) * 128 + 1 * l.val = l.val; omega
/-- and the column-sum row. -/
theorem blk1_sum (c : Dev nD) (t : Fin cfg1.N) (k : Fin 128) :
    blk1 V c 3 t (ix2 0 k) = V c main_v16 (ix2 0 k) := by
  show V c main_v16 (((cfg1.win 3).blk t).view.emb (ix2 0 k)) = _
  refine congrArg (V c main_v16) (funext fun a => Fin.ext ?_)
  obtain ⟨-, -, -, ⟨e0, e1⟩, -⟩ := win_index t
  match a with
  | ⟨0, _⟩ => show win1_3.index t (0 : Fin 2) * 1 + 1 * 0 = 0; omega
  | ⟨1, _⟩ => show win1_3.index t (1 : Fin 2) * 128 + 1 * k.val = k.val; omega

/-- Row j's score from the two normalized arrays, the Gram matrix and the column sums. -/
def rowScore (C X : S8192x128.Idx → EReal) (M : S128x128.Idx → EReal) (S : S1x128.Idx → EReal) (j : ℕ) : EReal :=
  ((∑ k : Fin 128, rowAt C j k * S (ix2 0 k)) - ∑ l : Fin 128, (∑ k : Fin 128, rowAt C j k * M (ix2 k l)) * rowAt X j l)
    - (∑ k : Fin 128, rowAt C j k * rowAt X j k) * (Ideal.ofBits .f32 0x3F800000#32 - ∑ k : Fin 128, rowAt X j k * rowAt X j k)

/-- The scores as a [8192, 1] array. -/
def scoresTotal (C X : S8192x128.Idx → EReal) (M : S128x128.Idx → EReal) (S : S1x128.Idx → EReal) : S8192x1.Idx → EReal :=
  fun i => rowScore C X M S (i 0).val

/-- The output block of point t sits at rows 1024 t … of the result. -/
theorem out_emb_row (t : Fin cfg1.N) (r : Fin 1024) (z : Fin 1) :
    ((((cfg1.win 4).blk t).view.emb (ix2 r z)) 0).val = 1024 * t.val + r.val := by
  obtain ⟨-, -, -, -, ⟨e0, e1⟩⟩ := win_index t
  show win1_4.index t (0 : Fin 2) * 1024 + 1 * r.val = 1024 * t.val + r.val; omega

/-- What point t writes back is the scores read through its block. -/
theorem scores_flushed (c : Dev nD) (t : Fin cfg1.N) :
    (dat1 V c).flushed 4 t = ((cfg1.win 4).blk t).view.read (Elt Ideal)
      (scoresTotal (V c main_v9) (V c main_v14) (V c main_v17) (V c main_v16)) := by
  show (cfg1.win 4).cut (grid1.coords t) ((dat1 V c).after 4 t) = _
  rw [after1_4, scoresOut_eq]
  funext y
  obtain ⟨r, z, rfl⟩ : ∃ (r : Fin 1024) (z : Fin 1), y = ix2 r z := ⟨⟨(y 0).val, (y 0).isLt⟩, ⟨(y 1).val, (y 1).isLt⟩, eq_ix2 y⟩
  show k1_pay1 (F := Ideal) (blk1 V c 0 t) (blk1 V c 1 t) (blk1 V c 2 t) (blk1 V c 3 t) (ix2 r z)
    = scoresTotal (V c main_v9) (V c main_v14) (V c main_v17) (V c main_v16) (((cfg1.win 4).blk t).view.emb (ix2 r z))
  rw [scoresPay_apply]
  unfold scoresTotal rowScore
  rw [out_emb_row]
  simp only [blk1_comb, blk1_docs, blk1_gram, blk1_sum]

/-- An index of the result is in point t's block iff each coordinate is in the block's range on its axis. -/
theorem scores_mem_blk (t : Fin cfg1.N) (i : S8192x1.Idx) :
    i ∈ ((cfg1.win 4).blk t).view.set ↔ ∀ a : Fin 2, win1_4.index t a * S1024x1.size a ≤ (i a).val ∧ (i a).val < win1_4.index t a * S1024x1.size a + S1024x1.size a := by
  show i ∈ ((View.whole main_v18).slice (win1_4.rect t)).set ↔ _
  rw [View.set_slice_whole, Rect.mem_set_unit]
  exact Iff.rfl

/-- THE ARRAY region 1 leaves: every row's score. -/
theorem scores_final (c : Dev nD) :
    (dat1 V c).arrAt 4 cfg1.N = scoresTotal (V c main_v9) (V c main_v14) (V c main_v17) (V c main_v16) :=
  (dat1 V c).arrAt_eq_of_cover 4 _ (fun t _ => scores_flushed V c t) (fun i => by
    have hi0 : (i 0).val < 8192 := (i 0).isLt
    have hi1 : (i 1).val < 1 := (i 1).isLt
    refine ⟨⟨(i 0).val / 1024, by rw [show cfg1.N = 8 from N_1]; omega⟩, flush1_4 _, ?_⟩
    rw [scores_mem_blk]
    obtain ⟨-, -, -, -, ⟨e0, e1⟩⟩ := win_index ⟨(i 0).val / 1024, by rw [show cfg1.N = 8 from N_1]; omega⟩
    intro a
    match a with
    | ⟨0, _⟩ =>
      show win1_4.index _ (0 : Fin 2) * 1024 ≤ (i 0).val ∧ (i 0).val < win1_4.index _ (0 : Fin 2) * 1024 + 1024
      rw [e0]; show (i 0).val / 1024 * 1024 ≤ (i 0).val ∧ (i 0).val < (i 0).val / 1024 * 1024 + 1024; omega
    | ⟨1, _⟩ =>
      show win1_4.index _ (1 : Fin 2) * 1 ≤ (i 1).val ∧ (i 1).val < win1_4.index _ (1 : Fin 2) * 1 + 1
      rw [e1]; omega)

end Cert.KernelIdeal.Frm1

end
-- ==== Proof.KernelValueIdeal.lean ====
/-
  What the two regions leave, in terms of the host prefix's values alone: region 1 reads the Gram matrix region 0 wrote, so
  the scores' array is every row's score over the normalized arrays C and X, the Gram matrix of X's rows and the column sums S.
-/
import proofs.«140489_j65704409694815_2_alg».proof.Proof.WholeValueIdeal
import proofs.«140489_j65704409694815_2_alg».proof.Proof.ScoresArrayIdeal

-- membership in a rectangle of these extents recurses once per coordinate of the long axes
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ)

/-- Region 0 leaves the Gram matrix of the normalized documents' rows. -/
theorem gramOut_eq (c : Dev nD) : gramOut m c = Frm.gramTotal (V5 m c main_v14) :=
  Frm.gram_final (E5 m) c

/-- Region 1 finds the host prefix's arrays as they were, and the Gram matrix's array at what region 0 left. -/
theorem E6_other (c : Dev nD) (b : Ref sig .tc) (hb : b ≠ main_v17) : E6 m c b = V5 m c b :=
  Function.update_of_ne (StableHlo.devRef_ne_of_ne hb) _ _
theorem E6_gram (c : Dev nD) : E6 m c main_v17 = gramOut m c := Function.update_self _ _ _

/-- Region 1 leaves every row's score. -/
theorem scoresArr_eq (c : Dev nD) :
    scoresArr m c = Frm1.scoresTotal (V5 m c main_v9) (V5 m c main_v14) (Frm.gramTotal (V5 m c main_v14)) (V5 m c main_v16) := by
  unfold scoresArr
  rw [Frm1.scores_final (E6 m) c, E6_other m c main_v9 (by decide), E6_other m c main_v14 (by decide), E6_other m c main_v16 (by decide),
    E6_gram, gramOut_eq]

end Cert.KernelIdeal.Whole

end
-- ==== Proof.KernelPrefixIdeal.lean ====
/-
  The host operations before the regions are the reference's own first operations: the kernel's normalized combined vectors
  and normalized documents are the reference's stages of the same arguments, and the column-sum row the kernel also forms is,
  entry k, the sum of column k of the normalized documents.
-/
import proofs.«140489_j65704409694815_2_alg».proof.Proof.WholeValueIdeal
import proofs.«140489_j65704409694815_2_alg».proof.Proof.RefReadPatched
import Idealize.ShloMosaic.Lib.StableHlo.Run
import Idealize.ShloMosaic.PureOps.Ideal.Laws
import Idealize.ShloMosaic.Lib.Pipeline.Value
import Idealize.ShloMosaic.Lib.ValueIdx

-- membership in a rectangle of these extents recurses once per coordinate of the long axes
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo Idealize.ShloMosaic.ValueIdx

variable (m : (ℓ : Loc nD τ sig) → Buf (Elt Ideal) ℓ)

set_option maxHeartbeats 8000000 in
/-- The kernel's normalized combined vectors are the reference's. -/
theorem prefix_comb (c : Dev nD) :
    V5 m c main_v9 = Cert.ReferenceIdeal.ReadP.val_main_v9 (F := Ideal) (m ((c : Thread nD τ).loc main_arg0)) (m ((c : Thread nD τ).loc main_arg1)) := by
  dsimp only [V5, V4, V3, V2, V1, V0]
  simp only [hostOps0_4, hostOps0_3, hostOps0_2, hostOps0_1, hostOps0]
  after_results_simp
  rfl

set_option maxHeartbeats 8000000 in
/-- The kernel's normalized documents are the reference's. -/
theorem prefix_docs (c : Dev nD) :
    V5 m c main_v14 = Cert.ReferenceIdeal.ReadP.val_main_v14 (F := Ideal) (m ((c : Thread nD τ).loc main_arg1)) := by
  dsimp only [V5, V4, V3, V2, V1, V0]
  simp only [hostOps0_4, hostOps0_3, hostOps0_2, hostOps0_1, hostOps0]
  after_results_simp
  rfl

/-- A [8192, 128] array's column sums as a [1, 128] row, at entry k. -/
theorem colSum_apply (Xv : FVec Ideal S8192x128 .f32) (k : Fin 128) :
    broadcastInDim S1x128 ![1] bcast_S128_S1x128_1 (Host.reduceAdd (F := Ideal) Xv (constant (F := Ideal) S_ .f32 0x00000000#32) reducesTo_S8192x128_S128_d0 h_S_) (ix2 0 k)
      = 0 + ∑ j : Fin 8192, Xv (ix2 j k) := by
  rw [broadcastInDim_apply _ bcast_S128_S1x128_1 _ (ix2 0 k) (ix1 k) (fun a => match a with
    | ⟨0, _⟩ => by show k.val = if (128 : Nat) = 1 then 0 else k.val; rw [if_neg (by decide)])]
  simp only [Host.reduceAdd, Ideal.hostReduceAdd_def]
  rw [Ideal.hostReduceAdd_single reducesTo_S8192x128_S128_d0 (by decide)]
  refine congrArg₂ (fun u v : EReal => u + v) Ideal.ofBits_zero_f32
    (Finset.sum_congr rfl fun j _ => congrArg Xv (funext fun a => Fin.ext (by match a with | ⟨0, _⟩ => rfl | ⟨1, _⟩ => rfl)))

set_option maxHeartbeats 8000000 in
/-- The kernel's column-sum row. -/
theorem prefix_sum (c : Dev nD) :
    (V5 m c main_v16 : S1x128.Idx → EReal) = broadcastInDim S1x128 ![1] bcast_S128_S1x128_1
      (Host.reduceAdd (F := Ideal) (Cert.ReferenceIdeal.ReadP.val_main_v14 (F := Ideal) (m ((c : Thread nD τ).loc main_arg1))) (constant (F := Ideal) S_ .f32 0x00000000#32) reducesTo_S8192x128_S128_d0 h_S_) := by
  dsimp only [V5, V4, V3, V2, V1, V0]
  simp only [hostOps0_4, hostOps0_3, hostOps0_2, hostOps0_1, hostOps0]
  after_results_simp
  rfl

end Cert.KernelIdeal.Whole

end
-- ==== Proof.ScoreLaw.lean ====
/-
  The law that joins the kernel's scores to the reference's, over the reals.
  For rows x_j (the normalized documents) and c_i (the normalized combined vectors) of length d, write
    ig i j = c_i · x_j          dd i j = x_i · x_j          M k l = Σ_j x_j[k] x_j[l]          S k = Σ_j x_j[k].
  The reference sums ig i j · (1 − dd i j) over the columns j other than i (it multiplies by 1 − [i = j]). Since the sum over
  all j is bilinear in x_j it factors through the Gram matrix M and the column sums S:
    Σ_j ig i j = c_i · S          Σ_j ig i j · dd i j = (c_i M) · x_i ,
  and the column j = i contributes ig i i · (1 − dd i i), which the kernel subtracts.
-/
import Idealize.ShloMosaic.PureOps.Ideal.Laws

namespace Cert.ScoreLaw

open Finset

variable {J K : Type} [Fintype J] [DecidableEq J] [Fintype K]

/-- Summing a family against the indicator of "not column i" removes column i's term. -/
theorem sum_off_diagonal (f : J → ℝ) (i : J) :
    ∑ j, f j * (1 - (if i = j then (1 : ℝ) else 0)) = ∑ j, f j - f i := by
  have h : ∀ j, f j * (1 - (if i = j then (1 : ℝ) else 0)) = f j - (if i = j then f j else 0) := by
    intro j; by_cases hij : i = j <;> simp [hij]
  simp only [h, Finset.sum_sub_distrib, Finset.sum_ite_eq, Finset.mem_univ, if_true]

/-- The sum of the inner products c_i · x_j over all j is c_i against the column sums. -/
theorem sum_ig (c : K → ℝ) (x : J → K → ℝ) :
    ∑ j, ∑ k, c k * x j k = ∑ k, c k * ∑ j, x j k := by
  rw [Finset.sum_comm]
  exact Finset.sum_congr rfl fun k _ => (Finset.mul_sum _ _ _).symm

/-- The sum over all j of (c_i · x_j)(x_i · x_j) is (c_i M) · x_i with M the Gram matrix of the rows. -/
theorem sum_ig_dd (c xi : K → ℝ) (x : J → K → ℝ) :
    ∑ j, (∑ k, c k * x j k) * (∑ l, xi l * x j l) = ∑ l, (∑ k, c k * ∑ j, x j k * x j l) * xi l := by
  have hL : ∀ j, (∑ k, c k * x j k) * (∑ l, xi l * x j l) = ∑ l, ∑ k, c k * x j k * (xi l * x j l) := by
    intro j; rw [Finset.sum_mul_sum, Finset.sum_comm]
  have hR : ∀ l, (∑ k, c k * ∑ j, x j k * x j l) * xi l = ∑ j, ∑ k, c k * x j k * (xi l * x j l) := by
    intro l
    rw [Finset.sum_mul, Finset.sum_comm]
    refine Finset.sum_congr rfl fun k _ => ?_
    rw [Finset.mul_sum, Finset.sum_mul]
    exact Finset.sum_congr rfl fun j _ => by ring
  simp only [hL, hR]
  rw [Finset.sum_comm]

/-- THE LAW: the reference's masked double sum is the kernel's factorized expression. -/
theorem scores_eq (c xi : K → ℝ) (x : J → K → ℝ) (i : J) (hxi : x i = xi) :
    ∑ j, ((∑ k, c k * x j k) * (1 - ∑ l, xi l * x j l)) * (1 - (if i = j then (1 : ℝ) else 0))
      = ((∑ k, c k * ∑ j, x j k) - ∑ l, (∑ k, c k * ∑ j, x j k * x j l) * xi l)
          - (∑ k, c k * xi k) * (1 - ∑ l, xi l * xi l) := by
  rw [sum_off_diagonal (fun j => (∑ k, c k * x j k) * (1 - ∑ l, xi l * x j l)) i]
  have hsplit : ∀ j, (∑ k, c k * x j k) * (1 - ∑ l, xi l * x j l)
      = (∑ k, c k * x j k) - (∑ k, c k * x j k) * (∑ l, xi l * x j l) := fun j => by ring
  simp only [hsplit, Finset.sum_sub_distrib, sum_ig, sum_ig_dd, hxi]

end Cert.ScoreLaw
-- ==== Proof.ScoreBridgeIdeal.lean ====
/-
  From the kernel's per-row score on the extended reals to the real law. When every entry of the two normalized arrays is a real
  number, each sum and product in the score is the coercion of the real one (on the extended reals distributivity needs this), the
  block-by-block Gram sum regroups into the sum over all 8192 rows, and the real law gives the reference's masked double sum.
-/
import proofs.«140489_j65704409694815_2_alg».proof.Proof.ScoresArrayIdeal
import proofs.«140489_j65704409694815_2_alg».proof.Proof.ScoreLaw
import Idealize.ShloMosaic.Lib.IdealHost

noncomputable section

namespace Cert.KernelIdeal.Bridge

open Cert.KernelIdeal Idealize.ShloMosaic Idealize.ShloMosaic.ValueIdx
open Cert.KernelIdeal.Frm (rowAt gramTotal blockTerm)
open Cert.KernelIdeal.Frm1 (rowScore)

/-- The coercion of a finite real sum is the sum of the coercions. -/
theorem coe_sum {ι : Type} (s : Finset ι) (f : ι → ℝ) : ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

/-- Eight blocks of 1024 consecutive terms are the first 8192 terms. -/
theorem sum_blocks_range (g : ℕ → ℝ) : ∀ b : ℕ,
    ∑ s ∈ Finset.range b, ∑ r ∈ Finset.range 1024, g (1024 * s + r) = ∑ n ∈ Finset.range (1024 * b), g n
  | 0 => by simp
  | b + 1 => by rw [Finset.sum_range_succ, sum_blocks_range g b, Nat.mul_succ, Finset.sum_range_add]

theorem sum_blocks (g : ℕ → ℝ) :
    ∑ s ∈ Finset.range 8, ∑ r : Fin 1024, g (1024 * s + r.val) = ∑ j : Fin 8192, g j.val := by
  rw [Fin.sum_univ_eq_sum_range g 8192, ← sum_blocks_range g 8]
  exact Finset.sum_congr rfl fun s _ => Fin.sum_univ_eq_sum_range (fun r => g (1024 * s + r)) 1024

/-- A real array's row n, zero past the last row. -/
def ext (x : Fin 8192 → Fin 128 → ℝ) (n : ℕ) (q : Fin 128) : ℝ := if h : n < 8192 then x ⟨n, h⟩ q else 0

theorem ext_val (x : Fin 8192 → Fin 128 → ℝ) (j : Fin 8192) (q : Fin 128) : ext x j.val q = x j q := by
  unfold ext; rw [dif_pos j.isLt]

variable (x : Fin 8192 → Fin 128 → ℝ) (X : S8192x128.Idx → EReal) (hX : ∀ j k, X (ix2 j k) = ((x j k : ℝ) : EReal))
include hX

theorem rowAt_coe (n : ℕ) (q : Fin 128) : rowAt X n q = ((ext x n q : ℝ) : EReal) := by
  unfold rowAt ext
  by_cases h : n < 8192
  · rw [dif_pos h, dif_pos h]; exact hX ⟨n, h⟩ q
  · rw [dif_neg h, dif_neg h]; exact EReal.coe_zero.symm

/-- The block-by-block Gram sum is the Gram matrix of all the rows. -/
theorem gramTotal_coe (k l : Fin 128) : gramTotal X (ix2 k l) = ((∑ i : Fin 8192, x i k * x i l : ℝ) : EReal) := by
  show ∑ s ∈ Finset.range 8, ∑ r : Fin 1024, rowAt X (1024 * s + r.val) k * rowAt X (1024 * s + r.val) l = _
  simp only [rowAt_coe x X hX, ← EReal.coe_mul, ← coe_sum]
  refine congrArg _ ((sum_blocks fun n => ext x n k * ext x n l).trans ?_)
  exact Finset.sum_congr rfl fun i _ => by rw [ext_val, ext_val]

omit hX in
/-- The kernel's factorized score of row j, over the reals. -/
def kernelReal (c x : Fin 8192 → Fin 128 → ℝ) (j : Fin 8192) : ℝ :=
  ((∑ k, c j k * ∑ i, x i k) - ∑ l, (∑ k, c j k * ∑ i, x i k * x i l) * x j l) - (∑ k, c j k * x j k) * (1 - ∑ l, x j l * x j l)

omit hX in
/-- The reference's masked double sum for row j, over the reals. -/
def referenceReal (c x : Fin 8192 → Fin 128 → ℝ) (j : Fin 8192) : ℝ :=
  ∑ k, ((∑ l, c j l * x k l) * (1 - ∑ l, x j l * x k l)) * (1 - (if j = k then (1 : ℝ) else 0))

omit hX in
/-- THE LAW, at these extents. -/
theorem kernelReal_eq_referenceReal (c x : Fin 8192 → Fin 128 → ℝ) (j : Fin 8192) : kernelReal c x j = referenceReal c x j :=
  (Cert.ScoreLaw.scores_eq (c j) (x j) x j rfl).symm

/-- The kernel's score of row j is the coercion of the real factorized expression. -/
theorem rowScore_coe (c : Fin 8192 → Fin 128 → ℝ) (C : S8192x128.Idx → EReal) (hC : ∀ j k, C (ix2 j k) = ((c j k : ℝ) : EReal))
    (S : S1x128.Idx → EReal) (hS : ∀ k : Fin 128, S (ix2 0 k) = ((∑ i : Fin 8192, x i k : ℝ) : EReal)) (j : Fin 8192) :
    rowScore C X (gramTotal X) S j.val = ((kernelReal c x j : ℝ) : EReal) := by
  unfold rowScore kernelReal
  simp only [rowAt_coe c C hC, rowAt_coe x X hX, ext_val, gramTotal_coe x X hX, hS, Ideal.ofBits_one_f32]
  simp only [EReal.coe_sub, EReal.coe_mul, coe_sum, EReal.coe_one]

end Cert.KernelIdeal.Bridge

end
-- ==== Proof.RefScoresIdeal.lean ====
/-
  The reference's score of row j, read off its printed operations. Entry (j, k) of the masked gain matrix is
    (c_j · x_k)(1 − x_j · x_k)(1 − [j = k]),
  the two inner products read off the two dot_generals against the transposed normalized documents, the indicator off the
  comparison of the two iotas; the score sums row j over all 8192 columns k. When every entry of the two normalized arrays is a
  real number this is the coercion of the real masked double sum.
-/
import proofs.«140489_j65704409694815_2_alg».proof.Proof.RefReadPatched
import proofs.«140489_j65704409694815_2_alg».proof.Proof.ScoreBridgeIdeal
import Idealize.ShloMosaic.Lib.IdealHost

noncomputable section

namespace Cert.ReferenceIdeal.Scores

open Cert.ReferenceIdeal Cert.ReferenceIdeal.Gen Cert.ReferenceIdeal.ReadP Idealize.ShloMosaic Idealize.ShloMosaic.ValueIdx
open Cert.KernelIdeal.Bridge (coe_sum referenceReal)

/-- The indicator of the diagonal, as the reference computes it: row iota (plus zero) against column iota, converted to a float. -/
theorem diag_indicator (j k : Fin 8192) :
    ((IntOp.cmpi .eq (IntOp.addi (BitVec.ofNat 32 j.val) 0#32) (BitVec.ofNat 32 k.val)).toNat : ℝ) = if j = k then 1 else 0 := by
  have hj : j.val < 2 ^ 32 := by have := j.isLt; omega
  have hk : k.val < 2 ^ 32 := by have := k.isLt; omega
  by_cases h : j = k
  · subst h; simp [IntOp.cmpi, IntOp.addi]
  · have hne : ¬(BitVec.ofNat 32 j.val + 0#32 = BitVec.ofNat 32 k.val) := by
      intro e
      apply h; apply Fin.ext
      have := congrArg BitVec.toNat e
      simp only [BitVec.add_zero, BitVec.toNat_ofNat] at this
      omega
    have hne' : ¬(BitVec.ofNat 32 j.val = BitVec.ofNat 32 k.val) := by simpa using hne
    simp [IntOp.cmpi, IntOp.addi, hne', h]

/-- The reference's score of row j is the coercion of the real masked double sum. -/
theorem refScore_coe (a0 : (⟨S128, .f32⟩ : BufTy).Contents (Elt Ideal)) (a1 : (⟨S8192x128, .f32⟩ : BufTy).Contents (Elt Ideal))
    (c x : Fin 8192 → Fin 128 → ℝ)
    (hC : ∀ j k, val_main_v9 (F := Ideal) a0 a1 (ix2 j k) = ((c j k : ℝ) : EReal))
    (hX : ∀ j k, val_main_v14 (F := Ideal) a1 (ix2 j k) = ((x j k : ℝ) : EReal)) (j : Fin 8192) :
    val_main_v31 (F := Ideal) a0 a1 (ix1 j) = ((referenceReal c x j : ℝ) : EReal) := by
  rw [val_main_v31_apply]
  have h0 : ∀ i, (val_main_cst_4 (F := Ideal)) i = 0 := fun i => (val_main_cst_4_apply i).trans Ideal.ofBits_zero_f32
  rw [h0, zero_add]
  unfold referenceReal
  rw [coe_sum]
  refine Finset.sum_congr rfl fun k _ => ?_
  have hidx : idx_main_v31 (ix1 j) k = ix2 j k := funext fun a => Fin.ext (by match a with | ⟨0, _⟩ => rfl | ⟨1, _⟩ => rfl)
  rw [hidx, val_main_v30_apply, val_main_v21_apply, val_main_v20_apply, val_main_v29_apply, val_main_v16_apply, val_main_v18_apply,
    val_main_v19_apply, val_main_v28_apply, val_main_cst_2_apply, val_main_cst_3_apply, val_main_v27_apply, val_main_v26_apply,
    val_main_v25_apply, val_main_v22_apply, val_main_v23_apply, val_main_v24_apply, val_main_c_apply]
  have hl : ∀ l : Fin 128, lidx_main_v16 (ix2 j k) l = ix2 j l := fun l => funext fun a => Fin.ext (by match a with | ⟨0, _⟩ => rfl | ⟨1, _⟩ => rfl)
  have hl' : ∀ l : Fin 128, lidx_main_v18 (ix2 j k) l = ix2 j l := fun l => funext fun a => Fin.ext (by match a with | ⟨0, _⟩ => rfl | ⟨1, _⟩ => rfl)
  have hr : ∀ l : Fin 128, val_main_v15 (F := Ideal) a1 (ridx_main_v16 (ix2 j k) l) = val_main_v14 (F := Ideal) a1 (ix2 k l) := fun l => by
    rw [val_main_v15_apply]
    exact congrArg _ (funext fun a => Fin.ext (by match a with | ⟨0, _⟩ => rfl | ⟨1, _⟩ => rfl))
  have hr' : ∀ l : Fin 128, val_main_v17 (F := Ideal) a1 (ridx_main_v18 (ix2 j k) l) = val_main_v14 (F := Ideal) a1 (ix2 k l) := fun l => by
    rw [val_main_v17_apply]
    exact congrArg _ (funext fun a => Fin.ext (by match a with | ⟨0, _⟩ => rfl | ⟨1, _⟩ => rfl))
  simp only [hl, hl', hr, hr', hC, hX]
  show ((∑ l : Fin 128, ((c j l : ℝ) : EReal) * ((x k l : ℝ) : EReal)) * (Ideal.ofBits .f32 0x3F800000#32 - ∑ l : Fin 128, ((x j l : ℝ) : EReal) * ((x k l : ℝ) : EReal)))
      * (Ideal.ofBits .f32 0x3F800000#32 - (((IntOp.cmpi .eq (IntOp.addi (BitVec.ofNat 32 j.val) 0#32) (BitVec.ofNat 32 k.val)).toNat : ℝ) : EReal)) = _
  rw [Ideal.ofBits_one_f32, diag_indicator]
  simp only [EReal.coe_sub, EReal.coe_mul, coe_sum, EReal.coe_one]

end Cert.ReferenceIdeal.Scores

end
-- ==== Proof.RefFiniteIdeal.lean ====
/-
  The two normalized arrays are real-valued when the inputs are. Each row y of a real array is divided by max(‖y‖, eps): the
  sum of squares is a nonnegative real, so its square root is a real; eps = 11258999 · 2⁻⁵⁰ is positive, so the maximum is a
  positive real and the quotient a real. (On the extended reals this is where the infinities and the junk values are excluded:
  a zero row divides by eps, not by zero.)
-/
import proofs.«140489_j65704409694815_2_alg».proof.Proof.RefReadPatched
import proofs.«140489_j65704409694815_2_alg».proof.Proof.ScoreBridgeIdeal
import Idealize.ShloMosaic.Lib.IdealHost

noncomputable section

namespace Cert.ReferenceIdeal.Finite

open Cert.ReferenceIdeal Cert.ReferenceIdeal.Gen Cert.ReferenceIdeal.ReadP Idealize.ShloMosaic Idealize.ShloMosaic.ValueIdx
open Cert.KernelIdeal.Bridge (coe_sum)

/-- The clamp of the two cosine normalizations, 1e-8 rounded to f32. -/
def eps : ℝ := (11258999 : ℝ) * (2 : ℝ) ^ (-50 : ℤ)
theorem eps_pos : 0 < eps := by unfold eps; positivity
theorem eps_val : Ideal.ofBits .f32 0x322BCC77#32 = ((eps : ℝ) : EReal) := by
  unfold eps; simp [Ideal.ofBits, Ideal.ieee, -EReal.coe_mul]
theorem half_val : Ideal.ofBits .f32 0x3F000000#32 = (((1 : ℝ) / 2 : ℝ) : EReal) := by
  simp [Ideal.ofBits, Ideal.ieee, -EReal.coe_mul]; norm_num

/-- A real row's entry over max(‖row‖, eps), computed on the extended reals, is the real quotient. -/
theorem unit_coe (n : Fin 128 → ℝ) (a : ℝ) :
    Ideal.div (a : EReal) (max (Ideal.sqrt (0 + ∑ l : Fin 128, ((n l : ℝ) : EReal) * ((n l : ℝ) : EReal))) (eps : EReal))
      = ((a / max (Real.sqrt (∑ l, n l * n l)) eps : ℝ) : EReal) := by
  have hs : (0 : EReal) + ∑ l : Fin 128, ((n l : ℝ) : EReal) * ((n l : ℝ) : EReal) = ((∑ l, n l * n l : ℝ) : EReal) := by
    rw [zero_add, coe_sum]; simp only [EReal.coe_mul]
  have hnn : ¬(∑ l, n l * n l) < 0 := not_lt.mpr (Finset.sum_nonneg fun l _ => mul_self_nonneg _)
  rw [hs, Ideal.sqrt_coe, if_neg hnn, (EReal.coe_strictMono.monotone.map_max (a := Real.sqrt (∑ l, n l * n l)) (b := eps)).symm]
  have hpos : 0 < max (Real.sqrt (∑ l, n l * n l)) eps := lt_max_of_lt_right eps_pos
  rw [Ideal.div_coe (ne_of_gt hpos), ← EReal.coe_mul, mul_one_div]

variable (a0 : (⟨S128, .f32⟩ : BufTy).Contents (Elt Ideal)) (a1 : (⟨S8192x128, .f32⟩ : BufTy).Contents (Elt Ideal))
  (q : Fin 128 → ℝ) (d : Fin 8192 → Fin 128 → ℝ)
  (h0 : ∀ k, a0 (ix1 k) = ((q k : ℝ) : EReal)) (h1 : ∀ j k, a1 (ix2 j k) = ((d j k : ℝ) : EReal))

/-- The normalized documents. -/
def docsReal (d : Fin 8192 → Fin 128 → ℝ) (j : Fin 8192) (k : Fin 128) : ℝ := d j k / max (Real.sqrt (∑ l, d j l * d j l)) eps

include h1 in
theorem docsN_coe (j : Fin 8192) (k : Fin 128) : val_main_v14 (F := Ideal) a1 (ix2 j k) = ((docsReal d j k : ℝ) : EReal) := by
  rw [val_main_v14_apply, val_main_v13_apply, val_main_v12_apply, val_main_v10_apply, val_main_v11_apply, val_main_cst_1_apply,
    val_main_call1_v2_apply, val_main_call1_v1_apply, val_main_call1_cst_apply]
  have hi : ∀ l : Fin 128, idx_main_call1_v1 (idx_main_call1_v2 (idx_main_v13 (ix2 j k))) l = ix2 j l := fun l =>
    funext fun a => Fin.ext (by match a with | ⟨0, _⟩ => rfl | ⟨1, _⟩ => rfl)
  simp only [hi, val_main_call1_v0_apply, h1, Ideal.hostDivf_def, Ideal.hostUnary_sqrt_def, Ideal.maximumf_def, Ideal.ofBits_def,
    Ideal.mulf_def, Ideal.ofBits_zero_f32, eps_val]
  exact unit_coe (d j) (d j k)

/-- The combined vectors before normalization: (q + d_j) / 2. -/
def combRaw (q : Fin 128 → ℝ) (d : Fin 8192 → Fin 128 → ℝ) (j : Fin 8192) (k : Fin 128) : ℝ := (q k + d j k) * (1 / 2)
/-- The normalized combined vectors. -/
def combReal (q : Fin 128 → ℝ) (d : Fin 8192 → Fin 128 → ℝ) (j : Fin 8192) (k : Fin 128) : ℝ :=
  combRaw q d j k / max (Real.sqrt (∑ l, combRaw q d j l * combRaw q d j l)) eps

include h0 h1 in
theorem combRaw_coe (j : Fin 8192) (l : Fin 128) : val_main_v4 (F := Ideal) a0 a1 (ix2 j l) = ((combRaw q d j l : ℝ) : EReal) := by
  rw [val_main_v4_apply, val_main_v2_apply, val_main_v3_apply, val_main_cst_apply, val_main_v1_apply, val_main_v0_apply]
  have hi : idx_main_v0 (idx_main_v1 (ix2 j l)) = ix1 l := funext fun a => Fin.ext (by match a with | ⟨0, _⟩ => rfl)
  rw [hi, h0, h1]
  unfold combRaw
  simp only [Ideal.mulf_def, Ideal.addf_def, Ideal.ofBits_def, half_val, EReal.coe_add, EReal.coe_mul]

include h0 h1 in
theorem combN_coe (j : Fin 8192) (k : Fin 128) : val_main_v9 (F := Ideal) a0 a1 (ix2 j k) = ((combReal q d j k : ℝ) : EReal) := by
  rw [val_main_v9_apply, val_main_v8_apply, val_main_v7_apply, val_main_v5_apply, val_main_v6_apply, val_main_cst_0_apply,
    val_main_call0_v2_apply, val_main_call0_v1_apply, val_main_call0_cst_apply]
  have hi : ∀ l : Fin 128, idx_main_call0_v1 (idx_main_call0_v2 (idx_main_v8 (ix2 j k))) l = ix2 j l := fun l =>
    funext fun a => Fin.ext (by match a with | ⟨0, _⟩ => rfl | ⟨1, _⟩ => rfl)
  simp only [hi, val_main_call0_v0_apply, combRaw_coe a0 a1 q d h0 h1, Ideal.hostDivf_def, Ideal.hostUnary_sqrt_def, Ideal.maximumf_def,
    Ideal.ofBits_def, Ideal.mulf_def, Ideal.ofBits_zero_f32, eps_val]
  exact unit_coe (combRaw q d j) (combRaw q d j k)

end Cert.ReferenceIdeal.Finite

end
-- ==== Proof.PreRealIdeal.lean ====
/-
  What the precondition gives: every entry of the two float inputs is a real number. The printed predicate compares each entry's
  absolute value with +∞ and folds the comparisons by "and"; an extended real whose absolute value is below +∞ is neither
  infinity.
-/
import proofs.«140489_j65704409694815_2_alg».proof.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.Pre_finite_inputs.Real

open Cert.Pre_finite_inputs Idealize.ShloMosaic Idealize.ShloMosaic.ValueIdx

instance : Subsingleton S_.Idx := ⟨fun a b => funext fun d => d.elim0⟩

/-- The pattern 0x7F800000 is +∞. -/
theorem inf_val : Ideal.ofBits .f32 0x7F800000#32 = ⊤ := by simp [Ideal.ofBits, Ideal.ieee]

/-- An extended real whose absolute value compares below +∞ is a real. -/
theorem real_of_abs_lt (x : EReal) (h : Ideal.cmp .olt (max x (-x)) (Ideal.ofBits .f32 0x7F800000#32) = 1#1) : ∃ r : ℝ, x = r := by
  rw [inf_val] at h
  induction x using EReal.rec
  · simp [Ideal.cmp] at h
  · exact ⟨_, rfl⟩
  · simp [Ideal.cmp] at h

variable [Facts]

/-- Under the precondition both float inputs are real-valued. -/
theorem inputs_real (a0 : FVec Ideal S128 .f32) (a1 : FVec Ideal S8192x128 .f32) (a2 : IVec S8192 1)
    (h : fn (F := Ideal) a0 a1 a2 = fun _ => 1#1) :
    (∀ i, ∃ r : ℝ, a0 i = r) ∧ (∀ i, ∃ r : ℝ, a1 i = r) := by
  have h' := congrFun h ix0
  dsimp only [fn] at h'
  have h2 := IntOp.andi_eq_one.mp h'
  exact ⟨fun i => real_of_abs_lt (a0 i) (Host.reduce_andi_all _ _ _ _ ix0 h2.1 i),
    fun i => real_of_abs_lt (a1 i) (Host.reduce_andi_all _ _ _ _ ix0 h2.2 i)⟩

end Cert.Pre_finite_inputs.Real

end
-- ==== Proof.FinalIdeal.lean ====
/-
  The algebraic claim, assembled. The kernel's result is the host suffix applied to the scores region 1 left; the reference's is the
  same suffix applied to its own masked row sums. Under the precondition the inputs are real-valued, so the two normalized arrays are,
  and row j's score is on both sides the coercion of one real number (the factorized expression on the kernel's side, the masked
  double sum on the reference's; the real law joins them). With the scores equal as arrays, the two suffixes are the same operations
  of the same operands.
-/
import proofs.«140489_j65704409694815_2_alg».proof.Proof.KernelValueIdeal
import proofs.«140489_j65704409694815_2_alg».proof.Proof.KernelPrefixIdeal
import proofs.«140489_j65704409694815_2_alg».proof.Proof.RefScoresIdeal
import proofs.«140489_j65704409694815_2_alg».proof.Proof.RefFiniteIdeal
import proofs.«140489_j65704409694815_2_alg».proof.Proof.PreRealIdeal
import proofs.«140489_j65704409694815_2_alg».proof.Proof.Gen.Pre_finite_inputs

-- membership in a rectangle of these extents recurses once per coordinate of the long axes
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo Idealize.ShloMosaic.ValueIdx
open Cert.KernelIdeal.Bridge (coe_sum rowScore_coe kernelReal_eq_referenceReal)
open Cert.ReferenceIdeal.Finite (docsReal combReal docsN_coe combN_coe)

local instance : Cert.Pre_finite_inputs.Facts := Cert.Pre_finite_inputs.Gen.facts

variable (m : (ℓ : Loc nD τ sig) → Buf (Elt Ideal) ℓ)

/-- What the regions and the host prefix leave where the host suffix reads. -/
theorem V7_scores (c : Dev nD) : V7 m (outs m) c (Proc.devRef .tc main_v18) = scoresArr m c := by
  show Function.update (V6 m (outs m) c) main_v18 (outs m 7 main_v18 c) main_v18 = _
  rw [Function.update_self, outs_scores]
theorem V7_arg0 (c : Dev nD) : V7 m (outs m) c (Proc.devRef .tc main_arg0) = m ((c : Thread nD τ).loc main_arg0) :=
  (V7_of m (outs m) c main_arg0 (by decide)).trans ((V6_of m (outs m) c main_arg0 (by decide)).trans ((V5_of m c main_arg0 (by decide)).trans
    ((V4_of m c main_arg0 (by decide)).trans ((V3_of m c main_arg0 (by decide)).trans ((V2_of m c main_arg0 (by decide)).trans (V1_of m c main_arg0 (by decide)))))))
theorem V7_arg1 (c : Dev nD) : V7 m (outs m) c (Proc.devRef .tc main_arg1) = m ((c : Thread nD τ).loc main_arg1) :=
  (V7_of m (outs m) c main_arg1 (by decide)).trans ((V6_of m (outs m) c main_arg1 (by decide)).trans ((V5_of m c main_arg1 (by decide)).trans
    ((V4_of m c main_arg1 (by decide)).trans ((V3_of m c main_arg1 (by decide)).trans ((V2_of m c main_arg1 (by decide)).trans (V1_of m c main_arg1 (by decide)))))))
theorem V7_arg2 (c : Dev nD) : V7 m (outs m) c (Proc.devRef .tc main_arg2) = m ((c : Thread nD τ).loc main_arg2) :=
  (V7_of m (outs m) c main_arg2 (by decide)).trans ((V6_of m (outs m) c main_arg2 (by decide)).trans ((V5_of m c main_arg2 (by decide)).trans
    ((V4_of m c main_arg2 (by decide)).trans ((V3_of m c main_arg2 (by decide)).trans ((V2_of m c main_arg2 (by decide)).trans (V1_of m c main_arg2 (by decide)))))))

/-- THE SCORES: under the precondition the array region 1 leaves, flattened, is the reference's masked row sums. -/
theorem scores_eq (c : Dev nD)
    (hpre : Cert.Pre_finite_inputs.fn (F := Ideal) (m ((c : Thread nD τ).loc main_arg0)) (m ((c : Thread nD τ).loc main_arg1)) (m ((c : Thread nD τ).loc main_arg2)) = fun _ => 1#1) :
    shapeCast S8192 (scoresArr m c) shapeCasts_S8192x1_S8192
      = Cert.ReferenceIdeal.ReadP.val_main_v31 (F := Ideal) (m ((c : Thread nD τ).loc main_arg0)) (m ((c : Thread nD τ).loc main_arg1)) := by
  obtain ⟨h0r, h1r⟩ := Cert.Pre_finite_inputs.Real.inputs_real _ _ _ hpre
  choose q hq using fun k : Fin 128 => h0r (ix1 k)
  choose d hd using fun (j : Fin 8192) (k : Fin 128) => h1r (ix2 j k)
  have hX : ∀ j k, V5 m c main_v14 (ix2 j k) = ((docsReal d j k : ℝ) : EReal) := fun j k => by
    rw [prefix_docs]; exact docsN_coe _ d hd j k
  have hC : ∀ j k, V5 m c main_v9 (ix2 j k) = ((combReal q d j k : ℝ) : EReal) := fun j k => by
    rw [prefix_comb]; exact combN_coe _ _ q d hq hd j k
  have hS : ∀ k : Fin 128, V5 m c main_v16 (ix2 0 k) = ((∑ i : Fin 8192, docsReal d i k : ℝ) : EReal) := fun k => by
    refine ((congrFun (prefix_sum m c) (ix2 0 k)).trans (colSum_apply _ k)).trans ?_
    show (0 : EReal) + ∑ j : Fin 8192, Cert.ReferenceIdeal.ReadP.val_main_v14 (F := Ideal) (m ((c : Thread nD τ).loc main_arg1)) (ix2 j k)
      = ((∑ i : Fin 8192, docsReal d i k : ℝ) : EReal)
    rw [zero_add, coe_sum]
    exact Finset.sum_congr rfl fun j _ => docsN_coe _ d hd j k
  funext i
  obtain ⟨j, rfl⟩ : ∃ j : Fin 8192, i = ix1 j := ⟨⟨(i 0).val, (i 0).isLt⟩, eq_ix1 i⟩
  rw [shapeCast_apply (scoresArr m c) shapeCasts_S8192x1_S8192 (ix1 j) (ix2 j 0) (by
    show (S8192x1.rowMajor (ix2 j (0 : Fin 1))).val = (S8192.rowMajor (ix1 j)).val
    rw [Shape.rowMajor_val_two, Shape.rowMajor_val_one]; show j.val * 1 + 0 = j.val; omega)]
  rw [scoresArr_eq]
  show Frm1.rowScore (V5 m c main_v9) (V5 m c main_v14) (Frm.gramTotal (V5 m c main_v14)) (V5 m c main_v16) j.val = _
  rw [rowScore_coe (docsReal d) (V5 m c main_v14) hX (combReal q d) (V5 m c main_v9) hC (V5 m c main_v16) hS j,
    kernelReal_eq_referenceReal,
    Cert.ReferenceIdeal.Scores.refScore_coe _ _ (combReal q d) (docsReal d) (fun j k => combN_coe _ _ q d hq hd j k) (fun j k => docsN_coe _ d hd j k) j]

set_option maxHeartbeats 16000000 in
set_option maxRecDepth 65536 in
/-- THE RESULTS: from memories agreeing on the arguments, under the precondition, the kernel's result buffer and the reference's hold
    the same array. -/
theorem result_eq (m' : (ℓ : Loc Cert.ReferenceIdeal.nD Cert.ReferenceIdeal.τ Cert.ReferenceIdeal.sig) → Buf (Elt Ideal) ℓ) (c : Dev nD)
    (hpre : Cert.Pre_finite_inputs.fn (F := Ideal) (m ((c : Thread nD τ).loc main_arg0)) (m ((c : Thread nD τ).loc main_arg1)) (m ((c : Thread nD τ).loc main_arg2)) = fun _ => 1#1)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2)) :
    after (Cert.ReferenceIdeal.ValueP.ops (F := Ideal)) (launchContents m' c) (Proc.devRef .tc Cert.ReferenceIdeal.main_v55)
      = V13 m (outs m) c main_v43 := by
  have e0 : launchContents m' c (Proc.devRef .tc Cert.ReferenceIdeal.main_arg0) = m ((c.tc : Thread nD τ).loc main_arg0) := h0
  have e1 : launchContents m' c (Proc.devRef .tc Cert.ReferenceIdeal.main_arg1) = m ((c.tc : Thread nD τ).loc main_arg1) := h1
  have e2 : launchContents m' c (Proc.devRef .tc Cert.ReferenceIdeal.main_arg2) = m ((c.tc : Thread nD τ).loc main_arg2) := h2
  have hs := scores_eq m c hpre
  dsimp only [V13, V12, V11, V10, V9, V8]
  simp only [hostOps2_5, hostOps2_4, hostOps2_3, hostOps2_2, hostOps2_1, hostOps2]
  after_results_simp
  simp only [e0, e1, e2]
  rw [V7_scores m c, V7_arg0 m c, V7_arg1 m c, V7_arg2 m c]
  have hs' : (fun i => shapeCast main_v19.ty.shape (scoresArr m c) shapeCasts_S8192x1_S8192 i)
      = Cert.ReferenceIdeal.ReadP.val_main_v31 (F := Ideal) (m ((c : Thread nD τ).loc main_arg0)) (m ((c : Thread nD τ).loc main_arg1)) := hs
  first | rw [hs'] | simp only [hs']
  rfl

/-- The kernel's result array: the last boundary valuation at the result buffer. -/
def kernelResult (c : Dev nD) : Buf (Elt Ideal) ((c.tc : Thread nD τ).loc main_v43) := V13 m (outs m) c main_v43

/-- The kernel's run, its result named. -/
theorem run_result (ρ : Dev nD → PrngReg) : θ_run defs (onTc (τ := τ) (main (F := Ideal))) ⟨m, fun _ => 0, ρ⟩ (fun r => ∀ c : Dev nD,
      r.2.mem ((c.tc : Thread nD τ).loc main_v43) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_all (F := Ideal) m ρ

/-- The reference's result is the kernel's. -/
theorem result_eq' (m' : (ℓ : Loc Cert.ReferenceIdeal.nD Cert.ReferenceIdeal.τ Cert.ReferenceIdeal.sig) → Buf (Elt Ideal) ℓ) (c : Dev nD)
    (hpre : Cert.Pre_finite_inputs.fn (F := Ideal) (m ((c : Thread nD τ).loc main_arg0)) (m ((c : Thread nD τ).loc main_arg1)) (m ((c : Thread nD τ).loc main_arg2)) = fun _ => 1#1)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2)) :
    after (Cert.ReferenceIdeal.ValueP.ops (F := Ideal)) (launchContents m' c) (Proc.devRef .tc Cert.ReferenceIdeal.main_v55)
      = kernelResult m c :=
  result_eq m m' c hpre h0 h1 h2

end Cert.KernelIdeal.Whole

end
-- ==== Proof.lean ====
/-
  The certificate of the submodular-mutual-information scores kernel against its jnp reference.
  Both programs normalize the documents X and the combined vectors C = unit((q + d_i)/2) row by row on the host, and both end
  with the same masked softmax over the scores and the same normalized weighted average. They differ in how row i's score
  is reached. The reference forms the two n×n matrices C Xᵀ and X Xᵀ and sums (C Xᵀ)ᵢⱼ (1 − (X Xᵀ)ᵢⱼ) over j ≠ i. The kernel
  uses that this sum is bilinear in the rows x_j: with the d×d Gram matrix M = Xᵀ X (region 0, accumulated over eight row
  blocks in a scratch buffer) and the column sums S = Σⱼ x_j, row i's sum over ALL j is cᵢ·S − (cᵢ M)·xᵢ, and the j = i term
  (cᵢ·xᵢ)(1 − xᵢ·xᵢ) is subtracted (region 1).
  Under the precondition every entry of the inputs is a real number, hence every entry of X and C (a row is divided by
  max(‖row‖, eps) with eps > 0), so each score is on both sides the coercion of one real number, and over the reals the two
  expressions agree by distributivity; the scores being equal as arrays, the two programs' common suffix gives equal results.
  The three frames: the kernel's two regions are run through the several-regions launch (region 0's scratch carried by the
  region's invariant), once at the word level and once at the ideal values; the reference is a straight-line host program.
  The ideal pass rewrote nothing, so the idealization claim is empty.
-/
import proofs.«140489_j65704409694815_2_alg».proof.Defs
import proofs.«140489_j65704409694815_2_alg».proof.Proof.Gen.Kernel
import proofs.«140489_j65704409694815_2_alg».proof.Proof.Gen.KernelIdeal
import proofs.«140489_j65704409694815_2_alg».proof.Proof.Gen.ReferenceIdeal
import proofs.«140489_j65704409694815_2_alg».proof.Proof.Gen.Pre_finite_inputs
import proofs.«140489_j65704409694815_2_alg».proof.Proof.WholeRunBits
import proofs.«140489_j65704409694815_2_alg».proof.Proof.FinalIdeal
import proofs.«140489_j65704409694815_2_alg».proof.Proof.RefRunPatched
import Idealize.ShloMosaic.Adequacy
import Idealize.ShloMosaic.Init

noncomputable section

namespace Cert.Proof

open Idealize.ShloMosaic Idealize.SL.Sem

/-- The word-level kernel runs to the end, faults nowhere, and leaves its arguments as launched. -/
theorem frame_kernel : Cert.frame_Kernel (hKernel := Cert.Kernel.Gen.facts) (hPre_finite_inputs := Cert.Pre_finite_inputs.Gen.facts) :=
  fun m ρ _ => Cert.Kernel.Whole.frame (F := Bits) m ρ

/-- So does the kernel read at the ideal values. -/
theorem frame_kernelIdeal : Cert.frame_KernelIdeal (hKernelIdeal := Cert.KernelIdeal.Gen.facts) (hPre_finite_inputs := Cert.Pre_finite_inputs.Gen.facts) :=
  fun m ρ _ => Cert.KernelIdeal.Whole.frame (F := Ideal) m ρ

/-- And the reference: its straight-line run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run_fold (F := Ideal) m ρ)

/-- The ideal pass rewrote no operation. -/
theorem preserves : Cert.preserves_Kernel_KernelIdeal := trivial

set_option maxHeartbeats 2000000 in
/-- At the ideal values, from memories agreeing on the arguments and under the precondition, both programs run to the end with
    the same result: the kernel's result buffer holds the host suffix applied to what the regions left, the reference's the fold of its
    operations, and the two are one array. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Whole.kernelResult m c, Cert.KernelIdeal.Whole.run_result m ρ, ?_⟩
  refine (θ_run Cert.ReferenceIdeal.defs _ _).mono (fun _ h c => ⟨(h c).1.trans ?_, (h c).2⟩)
    (Cert.ReferenceIdeal.ValueP.run_fold (F := Ideal) m' ρ')
  exact Cert.KernelIdeal.Whole.result_eq' m m' c (hpre c) (hagree c).1 (hagree c).2.1 (hagree c).2.2

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
